-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096x2 : Shape := ⟨3, ![512, 4096, 2]⟩
abbrev S512x921 : Shape := ⟨2, ![512, 921]⟩
abbrev S_ : Shape := ⟨0, ![]⟩

class Facts : Prop where
  bcast_S_S512x4096x2 : S_.BroadcastsInDim S512x4096x2 (![] : Fin 0 → Fin S512x4096x2.rank)
  reducesTo_S512x4096x2_S_d0_1_2 : S512x4096x2.ReducesTo [0, 1, 2] S_
  h_S_ : 0 < S_.numel
  bcast_S_S512x921 : S_.BroadcastsInDim S512x921 (![] : Fin 0 → Fin S512x921.rank)
  reducesTo_S512x921_S_d0_1 : S512x921.ReducesTo [0, 1] S_

variable [Facts]

def fn {F : FTy → Type} [FloatOps F] (main_arg0 : FVec F S512x4096x2 .f32) (main_arg1 : FVec F S512x921 .f32) : IVec S_ 1 :=
  let main_v0 : FVec F S512x4096x2 .f32 := Host.absf main_arg0
  let main_cst : FVec F S_ .f32 := constant S_ .f32 0x7F800000#32
  let main_v1 : FVec F S512x4096x2 .f32 := broadcastInDim S512x4096x2 ![] bcast_S_S512x4096x2 main_cst
  let main_v2 : IVec S512x4096x2 1 := cmpf .olt main_v0 main_v1
  let main_c : IVec S_ 1 := constantI S_ 1 1#1
  let main_v3 : IVec S_ 1 := (fun x v => Host.reduce IntOp.andi x v reducesTo_S512x4096x2_S_d0_1_2 h_S_) main_v2 main_c
  let main_v4 : FVec F S512x921 .f32 := Host.absf main_arg1
  let main_cst_0 : FVec F S_ .f32 := constant S_ .f32 0x7F800000#32
  let main_v5 : FVec F S512x921 .f32 := broadcastInDim S512x921 ![] bcast_S_S512x921 main_cst_0
  let main_v6 : IVec S512x921 1 := cmpf .olt main_v4 main_v5
  let main_c_1 : IVec S_ 1 := constantI S_ 1 1#1
  let main_v7 : IVec S_ 1 := (fun x v => Host.reduce IntOp.andi x v reducesTo_S512x921_S_d0_1 h_S_) main_v6 main_c_1
  let main_v8 : IVec S_ 1 := andi main_v3 main_v7
  main_v8
-- ==== Kernel.lean ====
abbrev S512x4096x2 : Shape := ⟨3, ![512, 4096, 2]⟩
abbrev S512x921 : Shape := ⟨2, ![512, 921]⟩
abbrev S512x40 : Shape := ⟨2, ![512, 40]⟩
abbrev S512x20x2 : Shape := ⟨3, ![512, 20, 2]⟩
abbrev S512x20 : Shape := ⟨2, ![512, 20]⟩
abbrev S512x400 : Shape := ⟨2, ![512, 400]⟩
abbrev S512x20x20 : Shape := ⟨3, ![512, 20, 20]⟩
abbrev S512x1x20 : Shape := ⟨3, ![512, 1, 20]⟩
abbrev S512x1 : Shape := ⟨2, ![512, 1]⟩
abbrev S512x1x4096 : Shape := ⟨3, ![512, 1, 4096]⟩
abbrev S16x1024x2 : Shape := ⟨3, ![16, 1024, 2]⟩
abbrev S16x20x2 : Shape := ⟨3, ![16, 20, 2]⟩
abbrev S16x20 : Shape := ⟨2, ![16, 20]⟩
abbrev S16x20x20 : Shape := ⟨3, ![16, 20, 20]⟩
abbrev S16x1x20 : Shape := ⟨3, ![16, 1, 20]⟩
abbrev S16x1 : Shape := ⟨2, ![16, 1]⟩
abbrev S16x1x1024 : Shape := ⟨3, ![16, 1, 1024]⟩
abbrev S16x2x1024 : Shape := ⟨3, ![16, 2, 1024]⟩
abbrev S16x20x1024 : Shape := ⟨3, ![16, 20, 1024]⟩
abbrev S16x20x1 : Shape := ⟨3, ![16, 20, 1]⟩
abbrev S16x1x1 : Shape := ⟨3, ![16, 1, 1]⟩
abbrev S512x4096x1 : Shape := ⟨3, ![512, 4096, 1]⟩

abbrev nBuf : Space → Nat
  | .hbm => 16
  | .vmem => 20
  | .smem => 0
  | _ => 0

abbrev bufTy : (tb : Table) → Fin (tcTables nBuf tb) → BufTy
  | .hbm, ⟨0, _⟩ => ⟨S512x4096x2, .f32⟩
  | .hbm, ⟨1, _⟩ => ⟨S512x921, .f32⟩
  | .hbm, ⟨2, _⟩ => ⟨S512x40, .f32⟩
  | .hbm, ⟨3, _⟩ => ⟨S512x20x2, .f32⟩
  | .hbm, ⟨4, _⟩ => ⟨S512x20, .f32⟩
  | .hbm, ⟨5, _⟩ => ⟨S512x400, .f32⟩
  | .hbm, ⟨6, _⟩ => ⟨S512x20x20, .f32⟩
  | .hbm, ⟨7, _⟩ => ⟨S512x20, .f32⟩
  | .hbm, ⟨8, _⟩ => ⟨S512x400, .f32⟩
  | .hbm, ⟨9, _⟩ => ⟨S512x20x20, .f32⟩
  | .hbm, ⟨10, _⟩ => ⟨S512x20, .f32⟩
  | .hbm, ⟨11, _⟩ => ⟨S512x20, .f32⟩
  | .hbm, ⟨12, _⟩ => ⟨S512x1x20, .f32⟩
  | .hbm, ⟨13, _⟩ => ⟨S512x1, .f32⟩
  | .hbm, ⟨14, _⟩ => ⟨S512x1x4096, .f32⟩
  | .hbm, ⟨15, _⟩ => ⟨S512x4096x1, .f32⟩
  | .local _ .vmem, ⟨0, _⟩ => ⟨S16x1024x2, .f32⟩
  | .local _ .vmem, ⟨1, _⟩ => ⟨S16x1024x2, .f32⟩
  | .local _ .vmem, ⟨2, _⟩ => ⟨S16x20x2, .f32⟩
  | .local _ .vmem, ⟨3, _⟩ => ⟨S16x20x2, .f32⟩
  | .local _ .vmem, ⟨4, _⟩ => ⟨S16x20, .f32⟩
  | .local _ .vmem, ⟨5, _⟩ => ⟨S16x20, .f32⟩
  | .local _ .vmem, ⟨6, _⟩ => ⟨S16x20x20, .f32⟩
  | .local _ .vmem, ⟨7, _⟩ => ⟨S16x20x20, .f32⟩
  | .local _ .vmem, ⟨8, _⟩ => ⟨S16x20, .f32⟩
  | .local _ .vmem, ⟨9, _⟩ => ⟨S16x20, .f32⟩
  | .local _ .vmem, ⟨10, _⟩ => ⟨S16x20x20, .f32⟩
  | .local _ .vmem, ⟨11, _⟩ => ⟨S16x20x20, .f32⟩
  | .local _ .vmem, ⟨12, _⟩ => ⟨S16x20, .f32⟩
  | .local _ .vmem, ⟨13, _⟩ => ⟨S16x20, .f32⟩
  | .local _ .vmem, ⟨14, _⟩ => ⟨S16x1x20, .f32⟩
  | .local _ .vmem, ⟨15, _⟩ => ⟨S16x1x20, .f32⟩
  | .local _ .vmem, ⟨16, _⟩ => ⟨S16x1, .f32⟩
  | .local _ .vmem, ⟨17, _⟩ => ⟨S16x1, .f32⟩
  | .local _ .vmem, ⟨18, _⟩ => ⟨S16x1x1024, .f32⟩
  | .local _ .vmem, ⟨19, _⟩ => ⟨S16x1x1024, .f32⟩
  | _, _ => ⟨S512x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S16x1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x20x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x20x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x20x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x1x20 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S512x921_S512x40_0_0 : S512x921.Slices ![0, 0] S512x40
  shapeCasts_S512x40_S512x20x2 : S512x40.ShapeCasts S512x20x2
  slices_S512x921_S512x20_0_40 : S512x921.Slices ![0, 40] S512x20
  slices_S512x921_S512x400_0_60 : S512x921.Slices ![0, 60] S512x400
  shapeCasts_S512x400_S512x20x20 : S512x400.ShapeCasts S512x20x20
  slices_S512x921_S512x20_0_460 : S512x921.Slices ![0, 460] S512x20
  slices_S512x921_S512x400_0_480 : S512x921.Slices ![0, 480] S512x400
  slices_S512x921_S512x20_0_880 : S512x921.Slices ![0, 880] S512x20
  slices_S512x921_S512x20_0_900 : S512x921.Slices ![0, 900] S512x20
  shapeCasts_S512x20_S512x1x20 : S512x20.ShapeCasts S512x1x20
  slices_S512x921_S512x1_0_920 : S512x921.Slices ![0, 920] S512x1
  inb_S16x1024x2_S16x1024x2_0_0_0 : ∀ a, (![0, 0, 0] : Fin 3 → Nat) a + S16x1024x2.size a ≤ S16x1024x2.size a
  h_S16x1024x2 : 0 < S16x1024x2.numel
  transposes_S16x1024x2_p0_2_1_S16x2x1024 : S16x1024x2.Transposes [0, 2, 1] S16x2x1024
  inb_S16x20x2_S16x20x2_0_0_0 : ∀ a, (![0, 0, 0] : Fin 3 → Nat) a + S16x20x2.size a ≤ S16x20x2.size a
  h_S16x20x2 : 0 < S16x20x2.numel
  shapeCasts_S16x20x2_S16x20x2 : S16x20x2.ShapeCasts S16x20x2
  inb_S16x20_S16x20_0_0 : ∀ a, (![0, 0] : Fin 2 → Nat) a + S16x20.size a ≤ S16x20.size a
  h_S16x20 : 0 < S16x20.numel
  shapeCasts_S16x20_S16x20 : S16x20.ShapeCasts S16x20
  shapeCasts_S16x20_S16x20x1 : S16x20.ShapeCasts S16x20x1
  broadcasts_S16x20x1_S16x20x1024 : S16x20x1.Broadcasts S16x20x1024
  inb_S16x20x20_S16x20x20_0_0_0 : ∀ a, (![0, 0, 0] : Fin 3 → Nat) a + S16x20x20.size a ≤ S16x20x20.size a
  h_S16x20x20 : 0 < S16x20x20.numel
  shapeCasts_S16x20x20_S16x20x20 : S16x20x20.ShapeCasts S16x20x20
  inb_S16x1x20_S16x1x20_0_0_0 : ∀ a, (![0, 0, 0] : Fin 3 → Nat) a + S16x1x20.size a ≤ S16x1x20.size a
  h_S16x1x20 : 0 < S16x1x20.numel
  shapeCasts_S16x1x20_S16x1x20 : S16x1x20.ShapeCasts S16x1x20
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S16x1_S16x1x1 : S16x1.ShapeCasts S16x1x1
  broadcasts_S16x1x1_S16x1x1024 : S16x1x1.Broadcasts S16x1x1024
  inb_S16x1x1024_S16x1x1024_0_0_0 : ∀ a, (![0, 0, 0] : Fin 3 → Nat) a + S16x1x1024.size a ≤ S16x1x1024.size a
  h_S16x1x1024 : 0 < S16x1x1024.numel
  transposes_S512x1x4096_S512x4096x1_0_2_1 : S512x1x4096.Transposes [0, 2, 1] S512x4096x1
  dot_S16x20x2_S16x2x1024_S16x20x1024_2_1_1_2_0_0_wf : DotDims.WF S16x20x2 S16x2x1024 S16x20x1024 [2] [1] [1] [2] [0] [0]
  dot_S16x20x20_S16x20x1024_S16x20x1024_2_1_1_2_0_0_wf : DotDims.WF S16x20x20 S16x20x1024 S16x20x1024 [2] [1] [1] [2] [0] [0]
  dot_S16x1x20_S16x20x1024_S16x1x1024_2_1_1_2_0_0_wf : DotDims.WF S16x1x20 S16x20x1024 S16x1x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024x2.size a ≤ S512x4096x2.size a
  hwx0_0 : ∀ i : grid0.Coords, EltTy.bits .f32 = 32 ∨ (Rect.block (s := S512x4096x2) S16x1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x20x2.size a ≤ S512x20x2.size a
  hwx0_1 : ∀ i : grid0.Coords, EltTy.bits .f32 = 32 ∨ (Rect.block (s := S512x20x2) S16x20x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x20.size a ≤ S512x20.size a
  hwx0_2 : ∀ i : grid0.Coords, EltTy.bits .f32 = 32 ∨ (Rect.block (s := S512x20) S16x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x20x20.size a ≤ S512x20x20.size a
  hwx0_3 : ∀ i : grid0.Coords, EltTy.bits .f32 = 32 ∨ (Rect.block (s := S512x20x20) S16x20x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x20.size a ≤ S512x20.size a
  hwx0_4 : ∀ i : grid0.Coords, EltTy.bits .f32 = 32 ∨ (Rect.block (s := S512x20) S16x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x20x20.size a ≤ S512x20x20.size a
  hwx0_5 : ∀ i : grid0.Coords, EltTy.bits .f32 = 32 ∨ (Rect.block (s := S512x20x20) S16x20x20.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x20.size a ≤ S512x20.size a
  hwx0_6 : ∀ i : grid0.Coords, EltTy.bits .f32 = 32 ∨ (Rect.block (s := S512x20) S16x20.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x1x20.size a ≤ S512x1x20.size a
  hwx0_7 : ∀ i : grid0.Coords, EltTy.bits .f32 = 32 ∨ (Rect.block (s := S512x1x20) S16x1x20.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x1.size a ≤ S512x1.size a
  hwx0_8 : ∀ i : grid0.Coords, EltTy.bits .f32 = 32 ∨ (Rect.block (s := S512x1) S16x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x1x1024.size a ≤ S512x1x4096.size a
  hwx0_9 : ∀ i : grid0.Coords, EltTy.bits .f32 = 32 ∨ (Rect.block (s := S512x1x4096) S16x1x1024.size (cc0_transform_9 i) (hinb0_9 i)).WholeWords (EltTy.packing .f32)

variable [Facts₀]

def dot_S16x20x2_S16x2x1024_S16x20x1024_2_1_1_2_0_0 : DotDims S16x20x2 S16x2x1024 S16x20x1024 where
  lhsContracting := [2]
  rhsContracting := [1]
  lhsNonContracting := [1]
  rhsNonContracting := [2]
  lhsBatch := [0]
  rhsBatch := [0]
  wf := dot_S16x20x2_S16x2x1024_S16x20x1024_2_1_1_2_0_0_wf
def dot_S16x20x20_S16x20x1024_S16x20x1024_2_1_1_2_0_0 : DotDims S16x20x20 S16x20x1024 S16x20x1024 where
  lhsContracting := [2]
  rhsContracting := [1]
  lhsNonContracting := [1]
  rhsNonContracting := [2]
  lhsBatch := [0]
  rhsBatch := [0]
  wf := dot_S16x20x20_S16x20x1024_S16x20x1024_2_1_1_2_0_0_wf
def dot_S16x1x20_S16x20x1024_S16x1x1024_2_1_1_2_0_0 : DotDims S16x1x20 S16x20x1024 S16x1x1024 where
  lhsContracting := [2]
  rhsContracting := [1]
  lhsNonContracting := [1]
  rhsNonContracting := [2]
  lhsBatch := [0]
  rhsBatch := [0]
  wf := dot_S16x1x20_S16x20x1024_S16x1x1024_2_1_1_2_0_0_wf

abbrev win0_0 : Pipeline.Window sig grid0 :=
  Pipeline.Window.ofSpec (Memref.whole main_arg0) S16x1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x20x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x20x20.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S16x20.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16x20x20.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S16x20.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10) S16x1x20.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11) S16x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12) S16x1x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S512x4096x2 : Shape := ⟨3, ![512, 4096, 2]⟩
abbrev S512x921 : Shape := ⟨2, ![512, 921]⟩
abbrev S512x40 : Shape := ⟨2, ![512, 40]⟩
abbrev S512x20x2 : Shape := ⟨3, ![512, 20, 2]⟩
abbrev S512x20 : Shape := ⟨2, ![512, 20]⟩
abbrev S512x400 : Shape := ⟨2, ![512, 400]⟩
abbrev S512x20x20 : Shape := ⟨3, ![512, 20, 20]⟩
abbrev S512x1x20 : Shape := ⟨3, ![512, 1, 20]⟩
abbrev S512x1 : Shape := ⟨2, ![512, 1]⟩
abbrev S512x4096x20 : Shape := ⟨3, ![512, 4096, 20]⟩
abbrev S_ : Shape := ⟨0, ![]⟩
abbrev S512x4096x1 : Shape := ⟨3, ![512, 4096, 1]⟩
abbrev S512x1x1 : Shape := ⟨3, ![512, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S512x4096x2, .f32⟩
  | .hbm, ⟨1, _⟩ => ⟨S512x921, .f32⟩
  | .hbm, ⟨2, _⟩ => ⟨S512x40, .f32⟩
  | .hbm, ⟨3, _⟩ => ⟨S512x20x2, .f32⟩
  | .hbm, ⟨4, _⟩ => ⟨S512x20, .f32⟩
  | .hbm, ⟨5, _⟩ => ⟨S512x400, .f32⟩
  | .hbm, ⟨6, _⟩ => ⟨S512x20x20, .f32⟩
  | .hbm, ⟨7, _⟩ => ⟨S512x20, .f32⟩
  | .hbm, ⟨8, _⟩ => ⟨S512x400, .f32⟩
  | .hbm, ⟨9, _⟩ => ⟨S512x20x20, .f32⟩
  | .hbm, ⟨10, _⟩ => ⟨S512x20, .f32⟩
  | .hbm, ⟨11, _⟩ => ⟨S512x20, .f32⟩
  | .hbm, ⟨12, _⟩ => ⟨S512x1x20, .f32⟩
  | .hbm, ⟨13, _⟩ => ⟨S512x1, .f32⟩
  | .hbm, ⟨14, _⟩ => ⟨S512x4096x20, .f32⟩
  | .hbm, ⟨15, _⟩ => ⟨S512x1x20, .f32⟩
  | .hbm, ⟨16, _⟩ => ⟨S512x4096x20, .f32⟩
  | .hbm, ⟨17, _⟩ => ⟨S512x4096x20, .f32⟩
  | .hbm, ⟨18, _⟩ => ⟨S_, .f32⟩
  | .hbm, ⟨19, _⟩ => ⟨S512x4096x20, .f32⟩
  | .hbm, ⟨20, _⟩ => ⟨S512x4096x20, .f32⟩
  | .hbm, ⟨21, _⟩ => ⟨S512x4096x20, .f32⟩
  | .hbm, ⟨22, _⟩ => ⟨S512x4096x20, .f32⟩
  | .hbm, ⟨23, _⟩ => ⟨S512x1x20, .f32⟩
  | .hbm, ⟨24, _⟩ => ⟨S512x4096x20, .f32⟩
  | .hbm, ⟨25, _⟩ => ⟨S512x4096x20, .f32⟩
  | .hbm, ⟨26, _⟩ => ⟨S_, .f32⟩
  | .hbm, ⟨27, _⟩ => ⟨S512x4096x20, .f32⟩
  | .hbm, ⟨28, _⟩ => ⟨S512x4096x20, .f32⟩
  | .hbm, ⟨29, _⟩ => ⟨S512x4096x20, .f32⟩
  | .hbm, ⟨30, _⟩ => ⟨S512x4096x20, .f32⟩
  | .hbm, ⟨31, _⟩ => ⟨S512x1x20, .f32⟩
  | .hbm, ⟨32, _⟩ => ⟨S512x4096x20, .f32⟩
  | .hbm, ⟨33, _⟩ => ⟨S512x4096x20, .f32⟩
  | .hbm, ⟨34, _⟩ => ⟨S_, .f32⟩
  | .hbm, ⟨35, _⟩ => ⟨S512x4096x20, .f32⟩
  | .hbm, ⟨36, _⟩ => ⟨S512x4096x20, .f32⟩
  | .hbm, ⟨37, _⟩ => ⟨S512x4096x20, .f32⟩
  | .hbm, ⟨38, _⟩ => ⟨S512x4096x1, .f32⟩
  | .hbm, ⟨39, _⟩ => ⟨S512x1x1, .f32⟩
  | .hbm, ⟨40, _⟩ => ⟨S512x4096x1, .f32⟩
  | .hbm, ⟨41, _⟩ => ⟨S512x4096x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S512x4096x1, .f32⟩
  | .hbm, ⟨46, _⟩ => ⟨S512x4096x1, .f32⟩
  | .hbm, ⟨47, _⟩ => ⟨S_, .f32⟩
  | .hbm, ⟨48, _⟩ => ⟨S512x4096x1, .f32⟩
  | .hbm, ⟨49, _⟩ => ⟨S512x4096x1, .f32⟩
  | _, _ => ⟨S512x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_1 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_2 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  slices_S512x921_S512x40_0_0 : S512x921.Slices ![0, 0] S512x40
  shapeCasts_S512x40_S512x20x2 : S512x40.ShapeCasts S512x20x2
  slices_S512x921_S512x20_0_40 : S512x921.Slices ![0, 40] S512x20
  slices_S512x921_S512x400_0_60 : S512x921.Slices ![0, 60] S512x400
  shapeCasts_S512x400_S512x20x20 : S512x400.ShapeCasts S512x20x20
  slices_S512x921_S512x20_0_460 : S512x921.Slices ![0, 460] S512x20
  slices_S512x921_S512x400_0_480 : S512x921.Slices ![0, 480] S512x400
  slices_S512x921_S512x20_0_880 : S512x921.Slices ![0, 880] S512x20
  slices_S512x921_S512x20_0_900 : S512x921.Slices ![0, 900] S512x20
  shapeCasts_S512x20_S512x1x20 : S512x20.ShapeCasts S512x1x20
  slices_S512x921_S512x1_0_920 : S512x921.Slices ![0, 920] S512x1
  bcast_S512x20_S512x1x20_0_2 : S512x20.BroadcastsInDim S512x1x20 (![0, 2] : Fin 2 → Fin S512x1x20.rank)
  bcast_S512x1x20_S512x4096x20_0_1_2 : S512x1x20.BroadcastsInDim S512x4096x20 (![0, 1, 2] : Fin 3 → Fin S512x4096x20.rank)
  bcast_S_S512x4096x20 : S_.BroadcastsInDim S512x4096x20 (![] : Fin 0 → Fin S512x4096x20.rank)
  bcast_S512x1_S512x1x1_0_2 : S512x1.BroadcastsInDim S512x1x1 (![0, 2] : Fin 2 → Fin S512x1x1.rank)
  bcast_S512x1x1_S512x4096x1_0_1_2 : S512x1x1.BroadcastsInDim S512x4096x1 (![0, 1, 2] : Fin 3 → Fin S512x4096x1.rank)
  bcast_S_S512x4096x1 : S_.BroadcastsInDim S512x4096x1 (![] : Fin 0 → Fin S512x4096x1.rank)
  dot_S512x4096x2_S512x20x2_S512x4096x20_2_2_1_1_0_0_wf : DotDims.WF S512x4096x2 S512x20x2 S512x4096x20 [2] [2] [1] [1] [0] [0]
  dot_S512x4096x20_S512x20x20_S512x4096x20_2_2_1_1_0_0_wf : DotDims.WF S512x4096x20 S512x20x20 S512x4096x20 [2] [2] [1] [1] [0] [0]
  dot_S512x4096x20_S512x1x20_S512x4096x1_2_2_1_1_0_0_wf : DotDims.WF S512x4096x20 S512x1x20 S512x4096x1 [2] [2] [1] [1] [0] [0]

variable [Facts₀]

def dot_S512x4096x2_S512x20x2_S512x4096x20_2_2_1_1_0_0 : DotDims S512x4096x2 S512x20x2 S512x4096x20 where
  lhsContracting := [2]
  rhsContracting := [2]
  lhsNonContracting := [1]
  rhsNonContracting := [1]
  lhsBatch := [0]
  rhsBatch := [0]
  wf := dot_S512x4096x2_S512x20x2_S512x4096x20_2_2_1_1_0_0_wf
def dot_S512x4096x20_S512x20x20_S512x4096x20_2_2_1_1_0_0 : DotDims S512x4096x20 S512x20x20 S512x4096x20 where
  lhsContracting := [2]
  rhsContracting := [2]
  lhsNonContracting := [1]
  rhsNonContracting := [1]
  lhsBatch := [0]
  rhsBatch := [0]
  wf := dot_S512x4096x20_S512x20x20_S512x4096x20_2_2_1_1_0_0_wf
def dot_S512x4096x20_S512x1x20_S512x4096x1_2_2_1_1_0_0 : DotDims S512x4096x20 S512x1x20 S512x4096x1 where
  lhsContracting := [2]
  rhsContracting := [2]
  lhsNonContracting := [1]
  rhsNonContracting := [1]
  lhsBatch := [0]
  rhsBatch := [0]
  wf := dot_S512x4096x20_S512x1x20_S512x4096x1_2_2_1_1_0_0_wf

class Facts : Prop extends Facts₀ where

variable [Facts]
-- ==== Proof.Mlp.lean ====
/-
  The function both programs compute, one output element at a time.

  For a sample `b` and a point `n` the network is a four-layer perceptron whose weights belong to the sample:
  three hidden layers of twenty units, each unit `sin (20 · (⟨h, w⟩ + β))` of the previous layer's values `h` (the point's
  two coordinates for the first layer), its weight row `w` and its bias `β`, and one output unit `⟨h, w⟩ + β` clamped to
  `[0, 1]`. Everything is on the extended reals; the inner product is a finite sum of products there.
  The factor 20 and the clamp's bounds are kept as the single-precision words both programs print: the same word on
  both sides is never evaluated.
-/
import Idealize.ShloMosaic.PureOps.Ideal
import Idealize.ShloMosaic.Lib.ValueIdx

noncomputable section

namespace Cert.Mlp

open Idealize.ShloMosaic Idealize.ShloMosaic.ValueIdx

/-- A hidden unit: `sin (20 · (Σ_k h k · w k + β))`. -/
def hidden {K : ℕ} (h w : Fin K → EReal) (β : EReal) : EReal :=
  Ideal.sin (Ideal.ofBits .f32 0x41A00000#32 * ((∑ k : Fin K, h k * w k) + β))

/-- The output unit: `min 1 (max 0 (Σ_k h k · w k + β))`. -/
def clamped {K : ℕ} (h w : Fin K → EReal) (β : EReal) : EReal :=
  min (Ideal.ofBits .f32 0x3F800000#32) (max (Ideal.ofBits .f32 0x00000000#32) ((∑ k : Fin K, h k * w k) + β))

/-- The network at one point: `x` the point's two coordinates; `W1 o`, `B1 o` the weight row and bias of first-layer
    unit `o`, and so on; `W4`, `B4` the output unit's. -/
def net (x : Fin 2 → EReal) (W1 : Fin 20 → Fin 2 → EReal) (B1 : Fin 20 → EReal)
    (W2 : Fin 20 → Fin 20 → EReal) (B2 : Fin 20 → EReal) (W3 : Fin 20 → Fin 20 → EReal) (B3 : Fin 20 → EReal)
    (W4 : Fin 20 → EReal) (B4 : EReal) : EReal :=
  clamped (fun k3 => hidden (fun k2 => hidden (fun k1 => hidden x (W1 k1) (B1 k1)) (W2 k2) (B2 k2)) (W3 k3) (B3 k3)) W4 B4

/-- The network over whole arrays, for `S` samples of `N` points each: the coordinates `X : [S, N, 2]`, the weights
    `[S, 20, 2]`, `[S, 20, 20]`, `[S, 20, 20]`, `[S, 1, 20]` and the biases `[S, 20]` (three) and `[S, 1]`, read at sample
    `b` and point `n`. -/
def netAt {S N : ℕ} (X : (⟨3, ![S, N, 2]⟩ : Shape).Idx → EReal)
    (W1 : (⟨3, ![S, 20, 2]⟩ : Shape).Idx → EReal) (B1 : (⟨2, ![S, 20]⟩ : Shape).Idx → EReal)
    (W2 : (⟨3, ![S, 20, 20]⟩ : Shape).Idx → EReal) (B2 : (⟨2, ![S, 20]⟩ : Shape).Idx → EReal)
    (W3 : (⟨3, ![S, 20, 20]⟩ : Shape).Idx → EReal) (B3 : (⟨2, ![S, 20]⟩ : Shape).Idx → EReal)
    (W4 : (⟨3, ![S, 1, 20]⟩ : Shape).Idx → EReal) (B4 : (⟨2, ![S, 1]⟩ : Shape).Idx → EReal)
    (b : Fin S) (n : Fin N) : EReal :=
  net (fun k => X (ix3 b n k)) (fun o k => W1 (ix3 b o k)) (fun o => B1 (ix2 b o))
    (fun o k => W2 (ix3 b o k)) (fun o => B2 (ix2 b o)) (fun o k => W3 (ix3 b o k)) (fun o => B3 (ix2 b o))
    (fun k => W4 (ix3 b (0 : Fin 1) k)) (B4 (ix2 b (0 : Fin 1)))

/-- The result array as the reference lays it out, `[512, 4096, 1]`. -/
def result (X : (⟨3, ![512, 4096, 2]⟩ : Shape).Idx → EReal)
    (W1 : (⟨3, ![512, 20, 2]⟩ : Shape).Idx → EReal) (B1 : (⟨2, ![512, 20]⟩ : Shape).Idx → EReal)
    (W2 : (⟨3, ![512, 20, 20]⟩ : Shape).Idx → EReal) (B2 : (⟨2, ![512, 20]⟩ : Shape).Idx → EReal)
    (W3 : (⟨3, ![512, 20, 20]⟩ : Shape).Idx → EReal) (B3 : (⟨2, ![512, 20]⟩ : Shape).Idx → EReal)
    (W4 : (⟨3, ![512, 1, 20]⟩ : Shape).Idx → EReal) (B4 : (⟨2, ![512, 1]⟩ : Shape).Idx → EReal) :
    (⟨3, ![512, 4096, 1]⟩ : Shape).Idx → EReal :=
  fun i => netAt X W1 B1 W2 B2 W3 B3 W4 B4 (i 0) (i 1)

/-- The same values as the kernel lays them out before its last transposition, `[512, 1, 4096]`. -/
def resultT (X : (⟨3, ![512, 4096, 2]⟩ : Shape).Idx → EReal)
    (W1 : (⟨3, ![512, 20, 2]⟩ : Shape).Idx → EReal) (B1 : (⟨2, ![512, 20]⟩ : Shape).Idx → EReal)
    (W2 : (⟨3, ![512, 20, 20]⟩ : Shape).Idx → EReal) (B2 : (⟨2, ![512, 20]⟩ : Shape).Idx → EReal)
    (W3 : (⟨3, ![512, 20, 20]⟩ : Shape).Idx → EReal) (B3 : (⟨2, ![512, 20]⟩ : Shape).Idx → EReal)
    (W4 : (⟨3, ![512, 1, 20]⟩ : Shape).Idx → EReal) (B4 : (⟨2, ![512, 1]⟩ : Shape).Idx → EReal) :
    (⟨3, ![512, 1, 4096]⟩ : Shape).Idx → EReal :=
  fun i => netAt X W1 B1 W2 B2 W3 B3 W4 B4 (i 0) (i 2)

/-- The products of an inner product may be taken in either order. -/
theorem hidden_comm {K : ℕ} (h w : Fin K → EReal) (β : EReal) :
    Ideal.sin (Ideal.ofBits .f32 0x41A00000#32 * ((∑ k : Fin K, w k * h k) + β)) = hidden h w β := by
  unfold hidden
  simp only [mul_comm]

theorem clamped_comm {K : ℕ} (h w : Fin K → EReal) (β : EReal) :
    min (Ideal.ofBits .f32 0x3F800000#32) (max (Ideal.ofBits .f32 0x00000000#32) ((∑ k : Fin K, w k * h k) + β)) = clamped h w β := by
  unfold clamped
  simp only [mul_comm]

end Cert.Mlp

end
-- ==== Proof.RefNet.lean ====
/-
  The reference program, read one output element at a time, is the four-layer perceptron of `Cert.Mlp`.

  For a sample `b` and a point `n` the reference contracts the point's two coordinates with each of the twenty weight
  rows of the sample's first layer, adds the bias, multiplies by 20 and takes the sine; it does the same twice more on the
  twenty values of the layer before; and it contracts the last twenty values with the output unit's weight row, adds its
  bias and clamps to [0, 1]. Each contraction is the finite sum Σ_k h k · w k on the extended reals, the products in
  that order, so every layer is `Cert.Mlp.hidden` (the output `Cert.Mlp.clamped`) word for word and no algebraic law is
  used: each lemma only follows an index through the broadcasts and the contraction of its layer.
  The weight and bias arrays stay whole: the slices of the flat weight array and their reshapes are not opened.
-/
import proofs.«176612_j41377714930209_1_alg».proof.Proof.Gen.ReferenceIdeal.Read
import proofs.«176612_j41377714930209_1_alg».proof.Proof.Mlp

noncomputable section

namespace Cert.RefNet

open Cert.ReferenceIdeal Cert.ReferenceIdeal.Gen Cert.ReferenceIdeal.Read Idealize.ShloMosaic Idealize.ShloMosaic.ValueIdx

/-! ### Hidden layer 1 -/

/-- The left operand of the contraction is read at `(b, n, k)`. -/
theorem lidx_v12 (b : Fin 512) (n : Fin 4096) (o : Fin 20) (k : Fin 2) :
    lidx_main_v12 (ix3 b n o) k = ix3 b n k := by
  funext a; match a with | ⟨0, _⟩ => rfl | ⟨1, _⟩ => rfl | ⟨2, _⟩ => rfl

/-- The right operand of the contraction, the weight array, is read at `(b, o, k)`. -/
theorem ridx_v12 (b : Fin 512) (n : Fin 4096) (o : Fin 20) (k : Fin 2) :
    ridx_main_v12 (ix3 b n o) k = ix3 b o k := by
  funext a; match a with | ⟨0, _⟩ => rfl | ⟨1, _⟩ => rfl | ⟨2, _⟩ => rfl

/-- Spreading the bias over the points reads it at `(b, 0, o)`. -/
theorem idx_v14 (b : Fin 512) (n : Fin 4096) (o : Fin 20) :
    idx_main_v14 (ix3 b n o) = ix3 b (0 : Fin 1) o := by
  funext a; match a with | ⟨0, _⟩ => rfl | ⟨1, _⟩ => rfl | ⟨2, _⟩ => rfl

/-- Inserting the unit axis reads the bias at `(b, o)`. -/
theorem idx_v13 (b : Fin 512) (z : Fin 1) (o : Fin 20) :
    idx_main_v13 (ix3 b z o) = ix2 b o := by
  funext a; match a with | ⟨0, _⟩ => rfl | ⟨1, _⟩ => rfl

/-- First hidden layer: unit `o` at point `(b, n)` is `sin (20 · (Σ_k x (b, n, k) · W₁ (b, o, k) + β₁ (b, o)))`, the products, the sum, the bias, the factor and the sine in the order the reference performs them. -/
theorem layer1 (x0 : (⟨S512x4096x2, .f32⟩ : BufTy).Contents (Elt Ideal)) (x1 : (⟨S512x921, .f32⟩ : BufTy).Contents (Elt Ideal))
    (b : Fin 512) (n : Fin 4096) (o : Fin 20) :
    val_main_v18 (F := Ideal) x0 x1 (ix3 b n o)
      = Cert.Mlp.hidden (fun k => x0 (ix3 b n k)) (fun k => val_main_v1 (F := Ideal) x1 (ix3 b o k))
          (val_main_v2 (F := Ideal) x1 (ix2 b o)) := by
  rw [val_main_v18_apply, val_main_v17_apply, val_main_v16_apply, val_main_cst_apply, val_main_v15_apply,
    val_main_v12_apply, val_main_v14_apply, val_main_v13_apply]
  simp only [Ideal.ofBits_def, Ideal.addf_def, Ideal.mulf_def, Ideal.hostUnary_sin_def,
    lidx_v12, ridx_v12, idx_v14, idx_v13]
  rfl

/-! ### Hidden layer 2 -/

/-- The left operand of the contraction is read at `(b, n, k)`. -/
theorem lidx_v19 (b : Fin 512) (n : Fin 4096) (o : Fin 20) (k : Fin 20) :
    lidx_main_v19 (ix3 b n o) k = ix3 b n k := by
  funext a; match a with | ⟨0, _⟩ => rfl | ⟨1, _⟩ => rfl | ⟨2, _⟩ => rfl

/-- The right operand of the contraction, the weight array, is read at `(b, o, k)`. -/
theorem ridx_v19 (b : Fin 512) (n : Fin 4096) (o : Fin 20) (k : Fin 20) :
    ridx_main_v19 (ix3 b n o) k = ix3 b o k := by
  funext a; match a with | ⟨0, _⟩ => rfl | ⟨1, _⟩ => rfl | ⟨2, _⟩ => rfl

/-- Spreading the bias over the points reads it at `(b, 0, o)`. -/
theorem idx_v21 (b : Fin 512) (n : Fin 4096) (o : Fin 20) :
    idx_main_v21 (ix3 b n o) = ix3 b (0 : Fin 1) o := by
  funext a; match a with | ⟨0, _⟩ => rfl | ⟨1, _⟩ => rfl | ⟨2, _⟩ => rfl

/-- Inserting the unit axis reads the bias at `(b, o)`. -/
theorem idx_v20 (b : Fin 512) (z : Fin 1) (o : Fin 20) :
    idx_main_v20 (ix3 b z o) = ix2 b o := by
  funext a; match a with | ⟨0, _⟩ => rfl | ⟨1, _⟩ => rfl

/-- Second hidden layer: unit `o` at point `(b, n)` is `sin (20 · (Σ_k h₁ (b, n, k) · W₂ (b, o, k) + β₂ (b, o)))` of the first layer's values `h₁`. -/
theorem layer2 (x0 : (⟨S512x4096x2, .f32⟩ : BufTy).Contents (Elt Ideal)) (x1 : (⟨S512x921, .f32⟩ : BufTy).Contents (Elt Ideal))
    (b : Fin 512) (n : Fin 4096) (o : Fin 20) :
    val_main_v25 (F := Ideal) x0 x1 (ix3 b n o)
      = Cert.Mlp.hidden (fun k => val_main_v18 (F := Ideal) x0 x1 (ix3 b n k)) (fun k => val_main_v4 (F := Ideal) x1 (ix3 b o k))
          (val_main_v5 (F := Ideal) x1 (ix2 b o)) := by
  rw [val_main_v25_apply, val_main_v24_apply, val_main_v23_apply, val_main_cst_0_apply, val_main_v22_apply,
    val_main_v19_apply, val_main_v21_apply, val_main_v20_apply]
  simp only [Ideal.ofBits_def, Ideal.addf_def, Ideal.mulf_def, Ideal.hostUnary_sin_def,
    lidx_v19, ridx_v19, idx_v21, idx_v20]
  rfl

/-! ### Hidden layer 3 -/

/-- The left operand of the contraction is read at `(b, n, k)`. -/
theorem lidx_v26 (b : Fin 512) (n : Fin 4096) (o : Fin 20) (k : Fin 20) :
    lidx_main_v26 (ix3 b n o) k = ix3 b n k := by
  funext a; match a with | ⟨0, _⟩ => rfl | ⟨1, _⟩ => rfl | ⟨2, _⟩ => rfl

/-- The right operand of the contraction, the weight array, is read at `(b, o, k)`. -/
theorem ridx_v26 (b : Fin 512) (n : Fin 4096) (o : Fin 20) (k : Fin 20) :
    ridx_main_v26 (ix3 b n o) k = ix3 b o k := by
  funext a; match a with | ⟨0, _⟩ => rfl | ⟨1, _⟩ => rfl | ⟨2, _⟩ => rfl

/-- Spreading the bias over the points reads it at `(b, 0, o)`. -/
theorem idx_v28 (b : Fin 512) (n : Fin 4096) (o : Fin 20) :
    idx_main_v28 (ix3 b n o) = ix3 b (0 : Fin 1) o := by
  funext a; match a with | ⟨0, _⟩ => rfl | ⟨1, _⟩ => rfl | ⟨2, _⟩ => rfl

/-- Inserting the unit axis reads the bias at `(b, o)`. -/
theorem idx_v27 (b : Fin 512) (z : Fin 1) (o : Fin 20) :
    idx_main_v27 (ix3 b z o) = ix2 b o := by
  funext a; match a with | ⟨0, _⟩ => rfl | ⟨1, _⟩ => rfl

/-- Third hidden layer: unit `o` at point `(b, n)` is `sin (20 · (Σ_k h₂ (b, n, k) · W₃ (b, o, k) + β₃ (b, o)))` of the second layer's values `h₂`. -/
theorem layer3 (x0 : (⟨S512x4096x2, .f32⟩ : BufTy).Contents (Elt Ideal)) (x1 : (⟨S512x921, .f32⟩ : BufTy).Contents (Elt Ideal))
    (b : Fin 512) (n : Fin 4096) (o : Fin 20) :
    val_main_v32 (F := Ideal) x0 x1 (ix3 b n o)
      = Cert.Mlp.hidden (fun k => val_main_v25 (F := Ideal) x0 x1 (ix3 b n k)) (fun k => val_main_v7 (F := Ideal) x1 (ix3 b o k))
          (val_main_v8 (F := Ideal) x1 (ix2 b o)) := by
  rw [val_main_v32_apply, val_main_v31_apply, val_main_v30_apply, val_main_cst_1_apply, val_main_v29_apply,
    val_main_v26_apply, val_main_v28_apply, val_main_v27_apply]
  simp only [Ideal.ofBits_def, Ideal.addf_def, Ideal.mulf_def, Ideal.hostUnary_sin_def,
    lidx_v26, ridx_v26, idx_v28, idx_v27]
  rfl

/-! ### Output unit -/

/-- The left operand of the last contraction is read at `(b, n, k)`. -/
theorem lidx_v33 (b : Fin 512) (n : Fin 4096) (k : Fin 20) :
    lidx_main_v33 (ix3 b n (0 : Fin 1)) k = ix3 b n k := by
  funext a; match a with | ⟨0, _⟩ => rfl | ⟨1, _⟩ => rfl | ⟨2, _⟩ => rfl

/-- The output unit's weight row is read at `(b, 0, k)`. -/
theorem ridx_v33 (b : Fin 512) (n : Fin 4096) (k : Fin 20) :
    ridx_main_v33 (ix3 b n (0 : Fin 1)) k = ix3 b (0 : Fin 1) k := by
  funext a; match a with | ⟨0, _⟩ => rfl | ⟨1, _⟩ => rfl | ⟨2, _⟩ => rfl

/-- Spreading the output bias over the points reads it at `(b, 0, 0)`. -/
theorem idx_v35 (b : Fin 512) (n : Fin 4096) :
    idx_main_v35 (ix3 b n (0 : Fin 1)) = ix3 b (0 : Fin 1) (0 : Fin 1) := by
  funext a; match a with | ⟨0, _⟩ => rfl | ⟨1, _⟩ => rfl | ⟨2, _⟩ => rfl

/-- Inserting the unit axis reads the output bias at `(b, 0)`. -/
theorem idx_v34 (b : Fin 512) :
    idx_main_v34 (ix3 b (0 : Fin 1) (0 : Fin 1)) = ix2 b (0 : Fin 1) := by
  funext a; match a with | ⟨0, _⟩ => rfl | ⟨1, _⟩ => rfl

/-- The output at point `(b, n)` is `min 1 (max 0 (Σ_k h₃ (b, n, k) · W₄ (b, 0, k) + β₄ (b, 0)))` of the third layer's
    values `h₃`: the clamp is a maximum with the word of 0 followed by a minimum with the word of 1. -/
theorem output (x0 : (⟨S512x4096x2, .f32⟩ : BufTy).Contents (Elt Ideal)) (x1 : (⟨S512x921, .f32⟩ : BufTy).Contents (Elt Ideal))
    (b : Fin 512) (n : Fin 4096) :
    val_main_v37 (F := Ideal) x0 x1 (ix3 b n (0 : Fin 1))
      = Cert.Mlp.clamped (fun k => val_main_v32 (F := Ideal) x0 x1 (ix3 b n k))
          (fun k => val_main_v10 (F := Ideal) x1 (ix3 b (0 : Fin 1) k)) (val_main_v11 (F := Ideal) x1 (ix2 b (0 : Fin 1))) := by
  rw [val_main_v37_apply, val_main_call0_v4_apply, val_main_call0_v3_apply, val_main_cst_3_apply, val_main_call0_v2_apply,
    val_main_call0_v1_apply, val_main_call0_v0_apply, val_main_cst_2_apply, val_main_v36_apply, val_main_v33_apply,
    val_main_v35_apply, val_main_v34_apply]
  simp only [Ideal.ofBits_def, Ideal.addf_def, Ideal.maximumf_def, Ideal.minimumf_def,
    lidx_v33, ridx_v33, idx_v35, idx_v34]
  rfl

/-! ### The whole network -/

/-- The reference's result array is the network read at every sample and point, the weights being the slices and
    reshapes of the flat weight array as whole arrays. -/
theorem ref_result (x0 : (⟨S512x4096x2, .f32⟩ : BufTy).Contents (Elt Ideal)) (x1 : (⟨S512x921, .f32⟩ : BufTy).Contents (Elt Ideal)) :
    val_main_v37 (F := Ideal) x0 x1
      = Cert.Mlp.result x0 (val_main_v1 (F := Ideal) x1) (val_main_v2 (F := Ideal) x1) (val_main_v4 (F := Ideal) x1) (val_main_v5 (F := Ideal) x1)
          (val_main_v7 (F := Ideal) x1) (val_main_v8 (F := Ideal) x1) (val_main_v10 (F := Ideal) x1) (val_main_v11 (F := Ideal) x1) := by
  funext i
  obtain ⟨b, n, z, rfl⟩ : ∃ (b : Fin 512) (n : Fin 4096) (z : Fin 1), i = ix3 b n z := ⟨i 0, i 1, i 2, eq_ix3 i⟩
  obtain rfl : z = 0 := Subsingleton.elim _ _
  rw [output]
  simp only [layer3, layer2, layer1]
  rfl

end Cert.RefNet

end
-- ==== Proof.KerMatmul.lean ====
/-
  The kernel's three batched matrix products, read at an output index.

  Each is a product of a stack of sixteen matrices `L : [16, O, K]` with a stack `R : [16, K, 1024]`, sample by sample:
  the batch axis is the leading one of both operands, the left operand's last axis is contracted against the right
  operand's middle axis, and the accumulator is the zero array. On the extended reals the element at `(p, o, q)` is
  therefore the plain sum `Σ_k L (p, o, k) · R (p, k, q)`: the operand indices the dimension numbers prescribe are computed
  coordinate by coordinate, and the one-axis contraction index is re-indexed by its coordinate.
-/
import proofs.«176612_j41377714930209_1_alg».proof.Proof.Gen.KernelIdeal
import Idealize.ShloMosaic.Lib.ValueIdx
import Idealize.ShloMosaic.PureOps.Ideal.Laws

noncomputable section

namespace Cert.KerMatmul

open Cert.KernelIdeal Cert.KernelIdeal.Gen Idealize.ShloMosaic Idealize.ShloMosaic.ValueIdx

/-! ## Product 1 -/

theorem lhs1_0 (i : S16x20x1024.Idx) (q : dot_S16x20x2_S16x2x1024_S16x20x1024_2_1_1_2_0_0.contr.Idx) :
    (dot_S16x20x2_S16x2x1024_S16x20x1024_2_1_1_2_0_0.lhsIdx i q 0).val = (i 0).val := by
  unfold DotDims.lhsIdx
  rw [dif_pos (show (0 : Fin S16x20x2.rank) ∈ dot_S16x20x2_S16x2x1024_S16x20x1024_2_1_1_2_0_0.lhsBatch by decide)]
  rfl
theorem lhs1_1 (i : S16x20x1024.Idx) (q : dot_S16x20x2_S16x2x1024_S16x20x1024_2_1_1_2_0_0.contr.Idx) :
    (dot_S16x20x2_S16x2x1024_S16x20x1024_2_1_1_2_0_0.lhsIdx i q 1).val = (i 1).val := by
  unfold DotDims.lhsIdx
  rw [dif_neg (show ¬(1 : Fin S16x20x2.rank) ∈ dot_S16x20x2_S16x2x1024_S16x20x1024_2_1_1_2_0_0.lhsBatch by decide), dif_pos (show (1 : Fin S16x20x2.rank) ∈ dot_S16x20x2_S16x2x1024_S16x20x1024_2_1_1_2_0_0.lhsNonContracting by decide)]
  rfl
theorem lhs1_2 (i : S16x20x1024.Idx) (q : dot_S16x20x2_S16x2x1024_S16x20x1024_2_1_1_2_0_0.contr.Idx) :
    (dot_S16x20x2_S16x2x1024_S16x20x1024_2_1_1_2_0_0.lhsIdx i q 2).val = (q ⟨0, by decide⟩).val :=
  dot_S16x20x2_S16x2x1024_S16x20x1024_2_1_1_2_0_0.lhsIdx_val_of_single rfl i q
theorem rhs1_0 (i : S16x20x1024.Idx) (q : dot_S16x20x2_S16x2x1024_S16x20x1024_2_1_1_2_0_0.contr.Idx) :
    (dot_S16x20x2_S16x2x1024_S16x20x1024_2_1_1_2_0_0.rhsIdx i q 0).val = (i 0).val := by
  unfold DotDims.rhsIdx
  rw [dif_pos (show (0 : Fin S16x2x1024.rank) ∈ dot_S16x20x2_S16x2x1024_S16x20x1024_2_1_1_2_0_0.rhsBatch by decide)]
  rfl
theorem rhs1_1 (i : S16x20x1024.Idx) (q : dot_S16x20x2_S16x2x1024_S16x20x1024_2_1_1_2_0_0.contr.Idx) :
    (dot_S16x20x2_S16x2x1024_S16x20x1024_2_1_1_2_0_0.rhsIdx i q 1).val = (q ⟨0, by decide⟩).val :=
  dot_S16x20x2_S16x2x1024_S16x20x1024_2_1_1_2_0_0.rhsIdx_val_of_single rfl i q
theorem rhs1_2 (i : S16x20x1024.Idx) (q : dot_S16x20x2_S16x2x1024_S16x20x1024_2_1_1_2_0_0.contr.Idx) :
    (dot_S16x20x2_S16x2x1024_S16x20x1024_2_1_1_2_0_0.rhsIdx i q 2).val = (i 2).val := by
  unfold DotDims.rhsIdx
  rw [dif_neg (show ¬(2 : Fin S16x2x1024.rank) ∈ dot_S16x20x2_S16x2x1024_S16x20x1024_2_1_1_2_0_0.rhsBatch by decide), dif_pos (show (2 : Fin S16x2x1024.rank) ∈ dot_S16x20x2_S16x2x1024_S16x20x1024_2_1_1_2_0_0.rhsNonContracting by decide)]
  rfl

/-- The first layer's product: the weight block `[16, 20, 2]` against the transposed coordinates `[16, 2, 1024]`. Into the zero accumulator, at `(p, o, q)`, it is `Σ_k L (p, o, k) · R (p, k, q)`. -/
theorem mm1_apply (prec : Option ContractPrecision) (L : FVec Ideal S16x20x2 .f32) (R : FVec Ideal S16x2x1024 .f32)
    (p : Fin 16) (o : Fin 20) (q : Fin 1024) :
    matmul dot_S16x20x2_S16x2x1024_S16x20x1024_2_1_1_2_0_0 prec L R (constant (F := Ideal) S16x20x1024 .f32 0x00000000#32) (ix3 p o q)
      = ∑ k : Fin 2, L (ix3 p o k) * R (ix3 p k q) := by
  simp only [matmul]
  rw [Ideal.matmul_constant_zero_apply, ← Equiv.sum_comp (ValueIdx.contrEquiv1 dot_S16x20x2_S16x2x1024_S16x20x1024_2_1_1_2_0_0 2 rfl rfl).symm]
  refine Finset.sum_congr rfl fun k _ => ?_
  have hk := ValueIdx.contrEquiv1_symm_val dot_S16x20x2_S16x2x1024_S16x20x1024_2_1_1_2_0_0 2 rfl rfl k
  have el : dot_S16x20x2_S16x2x1024_S16x20x1024_2_1_1_2_0_0.lhsIdx (ix3 p o q) ((ValueIdx.contrEquiv1 dot_S16x20x2_S16x2x1024_S16x20x1024_2_1_1_2_0_0 2 rfl rfl).symm k) = ix3 p o k := funext fun a => Fin.ext (by
    match a with
    | ⟨0, _⟩ => exact lhs1_0 _ _
    | ⟨1, _⟩ => exact lhs1_1 _ _
    | ⟨2, _⟩ => exact (lhs1_2 _ _).trans hk)
  have er : dot_S16x20x2_S16x2x1024_S16x20x1024_2_1_1_2_0_0.rhsIdx (ix3 p o q) ((ValueIdx.contrEquiv1 dot_S16x20x2_S16x2x1024_S16x20x1024_2_1_1_2_0_0 2 rfl rfl).symm k) = ix3 p k q := funext fun a => Fin.ext (by
    match a with
    | ⟨0, _⟩ => exact rhs1_0 _ _
    | ⟨1, _⟩ => exact (rhs1_1 _ _).trans hk
    | ⟨2, _⟩ => exact rhs1_2 _ _)
  rw [el, er]

/-! ## Product 2 -/

theorem lhs2_0 (i : S16x20x1024.Idx) (q : dot_S16x20x20_S16x20x1024_S16x20x1024_2_1_1_2_0_0.contr.Idx) :
    (dot_S16x20x20_S16x20x1024_S16x20x1024_2_1_1_2_0_0.lhsIdx i q 0).val = (i 0).val := by
  unfold DotDims.lhsIdx
  rw [dif_pos (show (0 : Fin S16x20x20.rank) ∈ dot_S16x20x20_S16x20x1024_S16x20x1024_2_1_1_2_0_0.lhsBatch by decide)]
  rfl
theorem lhs2_1 (i : S16x20x1024.Idx) (q : dot_S16x20x20_S16x20x1024_S16x20x1024_2_1_1_2_0_0.contr.Idx) :
    (dot_S16x20x20_S16x20x1024_S16x20x1024_2_1_1_2_0_0.lhsIdx i q 1).val = (i 1).val := by
  unfold DotDims.lhsIdx
  rw [dif_neg (show ¬(1 : Fin S16x20x20.rank) ∈ dot_S16x20x20_S16x20x1024_S16x20x1024_2_1_1_2_0_0.lhsBatch by decide), dif_pos (show (1 : Fin S16x20x20.rank) ∈ dot_S16x20x20_S16x20x1024_S16x20x1024_2_1_1_2_0_0.lhsNonContracting by decide)]
  rfl
theorem lhs2_2 (i : S16x20x1024.Idx) (q : dot_S16x20x20_S16x20x1024_S16x20x1024_2_1_1_2_0_0.contr.Idx) :
    (dot_S16x20x20_S16x20x1024_S16x20x1024_2_1_1_2_0_0.lhsIdx i q 2).val = (q ⟨0, by decide⟩).val :=
  dot_S16x20x20_S16x20x1024_S16x20x1024_2_1_1_2_0_0.lhsIdx_val_of_single rfl i q
theorem rhs2_0 (i : S16x20x1024.Idx) (q : dot_S16x20x20_S16x20x1024_S16x20x1024_2_1_1_2_0_0.contr.Idx) :
    (dot_S16x20x20_S16x20x1024_S16x20x1024_2_1_1_2_0_0.rhsIdx i q 0).val = (i 0).val := by
  unfold DotDims.rhsIdx
  rw [dif_pos (show (0 : Fin S16x20x1024.rank) ∈ dot_S16x20x20_S16x20x1024_S16x20x1024_2_1_1_2_0_0.rhsBatch by decide)]
  rfl
theorem rhs2_1 (i : S16x20x1024.Idx) (q : dot_S16x20x20_S16x20x1024_S16x20x1024_2_1_1_2_0_0.contr.Idx) :
    (dot_S16x20x20_S16x20x1024_S16x20x1024_2_1_1_2_0_0.rhsIdx i q 1).val = (q ⟨0, by decide⟩).val :=
  dot_S16x20x20_S16x20x1024_S16x20x1024_2_1_1_2_0_0.rhsIdx_val_of_single rfl i q
theorem rhs2_2 (i : S16x20x1024.Idx) (q : dot_S16x20x20_S16x20x1024_S16x20x1024_2_1_1_2_0_0.contr.Idx) :
    (dot_S16x20x20_S16x20x1024_S16x20x1024_2_1_1_2_0_0.rhsIdx i q 2).val = (i 2).val := by
  unfold DotDims.rhsIdx
  rw [dif_neg (show ¬(2 : Fin S16x20x1024.rank) ∈ dot_S16x20x20_S16x20x1024_S16x20x1024_2_1_1_2_0_0.rhsBatch by decide), dif_pos (show (2 : Fin S16x20x1024.rank) ∈ dot_S16x20x20_S16x20x1024_S16x20x1024_2_1_1_2_0_0.rhsNonContracting by decide)]
  rfl

/-- A hidden layer's product: the weight block `[16, 20, 20]` against the previous layer's values `[16, 20, 1024]`. Into the zero accumulator, at `(p, o, q)`, it is `Σ_k L (p, o, k) · R (p, k, q)`. -/
theorem mm2_apply (prec : Option ContractPrecision) (L : FVec Ideal S16x20x20 .f32) (R : FVec Ideal S16x20x1024 .f32)
    (p : Fin 16) (o : Fin 20) (q : Fin 1024) :
    matmul dot_S16x20x20_S16x20x1024_S16x20x1024_2_1_1_2_0_0 prec L R (constant (F := Ideal) S16x20x1024 .f32 0x00000000#32) (ix3 p o q)
      = ∑ k : Fin 20, L (ix3 p o k) * R (ix3 p k q) := by
  simp only [matmul]
  rw [Ideal.matmul_constant_zero_apply, ← Equiv.sum_comp (ValueIdx.contrEquiv1 dot_S16x20x20_S16x20x1024_S16x20x1024_2_1_1_2_0_0 20 rfl rfl).symm]
  refine Finset.sum_congr rfl fun k _ => ?_
  have hk := ValueIdx.contrEquiv1_symm_val dot_S16x20x20_S16x20x1024_S16x20x1024_2_1_1_2_0_0 20 rfl rfl k
  have el : dot_S16x20x20_S16x20x1024_S16x20x1024_2_1_1_2_0_0.lhsIdx (ix3 p o q) ((ValueIdx.contrEquiv1 dot_S16x20x20_S16x20x1024_S16x20x1024_2_1_1_2_0_0 20 rfl rfl).symm k) = ix3 p o k := funext fun a => Fin.ext (by
    match a with
    | ⟨0, _⟩ => exact lhs2_0 _ _
    | ⟨1, _⟩ => exact lhs2_1 _ _
    | ⟨2, _⟩ => exact (lhs2_2 _ _).trans hk)
  have er : dot_S16x20x20_S16x20x1024_S16x20x1024_2_1_1_2_0_0.rhsIdx (ix3 p o q) ((ValueIdx.contrEquiv1 dot_S16x20x20_S16x20x1024_S16x20x1024_2_1_1_2_0_0 20 rfl rfl).symm k) = ix3 p k q := funext fun a => Fin.ext (by
    match a with
    | ⟨0, _⟩ => exact rhs2_0 _ _
    | ⟨1, _⟩ => exact (rhs2_1 _ _).trans hk
    | ⟨2, _⟩ => exact rhs2_2 _ _)
  rw [el, er]

/-! ## Product 3 -/

theorem lhs3_0 (i : S16x1x1024.Idx) (q : dot_S16x1x20_S16x20x1024_S16x1x1024_2_1_1_2_0_0.contr.Idx) :
    (dot_S16x1x20_S16x20x1024_S16x1x1024_2_1_1_2_0_0.lhsIdx i q 0).val = (i 0).val := by
  unfold DotDims.lhsIdx
  rw [dif_pos (show (0 : Fin S16x1x20.rank) ∈ dot_S16x1x20_S16x20x1024_S16x1x1024_2_1_1_2_0_0.lhsBatch by decide)]
  rfl
theorem lhs3_1 (i : S16x1x1024.Idx) (q : dot_S16x1x20_S16x20x1024_S16x1x1024_2_1_1_2_0_0.contr.Idx) :
    (dot_S16x1x20_S16x20x1024_S16x1x1024_2_1_1_2_0_0.lhsIdx i q 1).val = (i 1).val := by
  unfold DotDims.lhsIdx
  rw [dif_neg (show ¬(1 : Fin S16x1x20.rank) ∈ dot_S16x1x20_S16x20x1024_S16x1x1024_2_1_1_2_0_0.lhsBatch by decide), dif_pos (show (1 : Fin S16x1x20.rank) ∈ dot_S16x1x20_S16x20x1024_S16x1x1024_2_1_1_2_0_0.lhsNonContracting by decide)]
  rfl
theorem lhs3_2 (i : S16x1x1024.Idx) (q : dot_S16x1x20_S16x20x1024_S16x1x1024_2_1_1_2_0_0.contr.Idx) :
    (dot_S16x1x20_S16x20x1024_S16x1x1024_2_1_1_2_0_0.lhsIdx i q 2).val = (q ⟨0, by decide⟩).val :=
  dot_S16x1x20_S16x20x1024_S16x1x1024_2_1_1_2_0_0.lhsIdx_val_of_single rfl i q
theorem rhs3_0 (i : S16x1x1024.Idx) (q : dot_S16x1x20_S16x20x1024_S16x1x1024_2_1_1_2_0_0.contr.Idx) :
    (dot_S16x1x20_S16x20x1024_S16x1x1024_2_1_1_2_0_0.rhsIdx i q 0).val = (i 0).val := by
  unfold DotDims.rhsIdx
  rw [dif_pos (show (0 : Fin S16x20x1024.rank) ∈ dot_S16x1x20_S16x20x1024_S16x1x1024_2_1_1_2_0_0.rhsBatch by decide)]
  rfl
theorem rhs3_1 (i : S16x1x1024.Idx) (q : dot_S16x1x20_S16x20x1024_S16x1x1024_2_1_1_2_0_0.contr.Idx) :
    (dot_S16x1x20_S16x20x1024_S16x1x1024_2_1_1_2_0_0.rhsIdx i q 1).val = (q ⟨0, by decide⟩).val :=
  dot_S16x1x20_S16x20x1024_S16x1x1024_2_1_1_2_0_0.rhsIdx_val_of_single rfl i q
theorem rhs3_2 (i : S16x1x1024.Idx) (q : dot_S16x1x20_S16x20x1024_S16x1x1024_2_1_1_2_0_0.contr.Idx) :
    (dot_S16x1x20_S16x20x1024_S16x1x1024_2_1_1_2_0_0.rhsIdx i q 2).val = (i 2).val := by
  unfold DotDims.rhsIdx
  rw [dif_neg (show ¬(2 : Fin S16x20x1024.rank) ∈ dot_S16x1x20_S16x20x1024_S16x1x1024_2_1_1_2_0_0.rhsBatch by decide), dif_pos (show (2 : Fin S16x20x1024.rank) ∈ dot_S16x1x20_S16x20x1024_S16x1x1024_2_1_1_2_0_0.rhsNonContracting by decide)]
  rfl

/-- The output unit's product: the weight row `[16, 1, 20]` against the last hidden layer's values `[16, 20, 1024]`. Into the zero accumulator, at `(p, o, q)`, it is `Σ_k L (p, o, k) · R (p, k, q)`. -/
theorem mm3_apply (prec : Option ContractPrecision) (L : FVec Ideal S16x1x20 .f32) (R : FVec Ideal S16x20x1024 .f32)
    (p : Fin 16) (o : Fin 1) (q : Fin 1024) :
    matmul dot_S16x1x20_S16x20x1024_S16x1x1024_2_1_1_2_0_0 prec L R (constant (F := Ideal) S16x1x1024 .f32 0x00000000#32) (ix3 p o q)
      = ∑ k : Fin 20, L (ix3 p o k) * R (ix3 p k q) := by
  simp only [matmul]
  rw [Ideal.matmul_constant_zero_apply, ← Equiv.sum_comp (ValueIdx.contrEquiv1 dot_S16x1x20_S16x20x1024_S16x1x1024_2_1_1_2_0_0 20 rfl rfl).symm]
  refine Finset.sum_congr rfl fun k _ => ?_
  have hk := ValueIdx.contrEquiv1_symm_val dot_S16x1x20_S16x20x1024_S16x1x1024_2_1_1_2_0_0 20 rfl rfl k
  have el : dot_S16x1x20_S16x20x1024_S16x1x1024_2_1_1_2_0_0.lhsIdx (ix3 p o q) ((ValueIdx.contrEquiv1 dot_S16x1x20_S16x20x1024_S16x1x1024_2_1_1_2_0_0 20 rfl rfl).symm k) = ix3 p o k := funext fun a => Fin.ext (by
    match a with
    | ⟨0, _⟩ => exact lhs3_0 _ _
    | ⟨1, _⟩ => exact lhs3_1 _ _
    | ⟨2, _⟩ => exact (lhs3_2 _ _).trans hk)
  have er : dot_S16x1x20_S16x20x1024_S16x1x1024_2_1_1_2_0_0.rhsIdx (ix3 p o q) ((ValueIdx.contrEquiv1 dot_S16x1x20_S16x20x1024_S16x1x1024_2_1_1_2_0_0 20 rfl rfl).symm k) = ix3 p k q := funext fun a => Fin.ext (by
    match a with
    | ⟨0, _⟩ => exact rhs3_0 _ _
    | ⟨1, _⟩ => exact (rhs3_1 _ _).trans hk
    | ⟨2, _⟩ => exact rhs3_2 _ _)
  rw [el, er]

end Cert.KerMatmul

end
-- ==== Proof.LibBroadcast3.lean ====
/-
  Layout operations of rank three read at an index given by coordinates: the forms a broadcast sum over two leading axes
  and a reduction over the trailing axis with kept dimensions produce.
    [a, b]    cast to      [a, 1, b]   reads (p, u, k) at (p, k);
    [a, b]    cast to      [a, b, 1]   reads (p, q, u) at (p, q);
    [a, 1, b] broadcast to [a, c, b]   reads (p, q, k) at (p, 0, k)   (a row block repeated along the middle axis);
    [1, c, b] broadcast to [a, c, b]   reads (p, q, k) at (0, q, k)   (one matrix repeated along the leading axis);
    [a, b, 1] broadcast to [a, b, c]   reads (p, q, k) at (p, q, 0)   (a column of scalars repeated along the trailing axis);
  and the source index that a reduction of [a, b, c] over its trailing axis inserts coordinate k into, over the result
  index (p, q), is (p, q, k), so that a float sum over that axis reads, at (p, q), the sum over k of the source at (p, q, k).
-/
import Idealize.ShloMosaic.Lib.ValueLayout
import Idealize.ShloMosaic.PureOps.Reduce
import Idealize.ShloMosaic.PureOps.Ideal.Laws

namespace Cert.Broadcast3

open Idealize.ShloMosaic Idealize.ShloMosaic.ValueIdx

variable {α : Type}

/-- An `[a, b]` array cast to `[a, 1, b]` reads, at `(p, u, k)`, the operand at `(p, k)`, whatever the unit coordinate:
    the row-major position of `(p, u, k)` in `[a, 1, b]` is `(p · 1 + 0) · b + k`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (k : Fin b) :
    shapeCast ⟨3, ![a, 1, b]⟩ x h (ix3 p u k) = x (ix2 p k) :=
  shapeCast_apply x h _ _ (by
    have hu : u.val = 0 := by omega
    rw [Shape.rowMajor_val_three, Shape.rowMajor_val_two]
    show p.val * b + k.val = (p.val * 1 + u.val) * b + k.val
    rw [hu, Nat.mul_one, Nat.add_zero])

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, 1, b]` array broadcast to `[a, c, b]` reads, at `(p, q, k)`, the operand at `(p, 0, k)`. -/
theorem broadcastTo_a1b_acb_apply {a c b : ℕ} (v : (⟨3, ![a, 1, b]⟩ : Shape).Idx → α)
    (h : (⟨3, ![a, 1, b]⟩ : Shape).Broadcasts ⟨3, ![a, c, b]⟩) (p : Fin a) (q : Fin c) (k : Fin b) :
    broadcastTo ⟨3, ![a, c, b]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if b = 1 then 0 else k.val
    split
    · have := k.isLt; omega
    · rfl

/-- A `[1, c, b]` array broadcast to `[a, c, b]` reads, at `(p, q, k)`, the operand at `(0, q, k)`. -/
theorem broadcastTo_1cb_acb_apply {a c b : ℕ} (v : (⟨3, ![1, c, b]⟩ : Shape).Idx → α)
    (h : (⟨3, ![1, c, b]⟩ : Shape).Broadcasts ⟨3, ![a, c, b]⟩) (p : Fin a) (q : Fin c) (k : Fin b) :
    broadcastTo ⟨3, ![a, c, b]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if c = 1 then 0 else q.val
    split
    · have := q.isLt; omega
    · rfl
  | ⟨2, _⟩ =>
    show k.val = if b = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Reducing `[a, b, c]` over its trailing axis: the source index over the result index `(p, q)` with coordinate `k` on
    the dropped axis is `(p, q, k)`. -/
theorem lift_trailing {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, a float sum of `[a, b, c]` over its trailing axis reads, at `(p, q)`, the sum over `k` of the
    source at `(p, q, k)`. -/
theorem multiReduction_add_trailing {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (p : Fin a) (q : Fin b) :
    multiReduction .add [(2 : Fin 3)] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_trailing h p q k)

end Cert.Broadcast3
-- ==== Proof.KerPayload.lean ====
/-
  The kernel body's arithmetic, read at an index.

  The body computes, on one block of sixteen samples and 1024 points, with the points on the last axis:
  the coordinates block transposed to `[16, 2, 1024]`; then three hidden layers, each the batched product of the layer's
  weight block with the previous values, plus the bias block repeated along the points, times 20, under `sin`;
  then the output unit — product, bias, `max` with 0, `min` with 1. Each layer is named here as a function of its weight
  block, its bias block and the previous layer's values, the body's payload is their composition, and each layer at
  `(p, o, q)` is the specification's unit of the previous layer's column `q` of sample `p`: the product is a sum of
  `w · h` where the specification writes `h · w`, which is the commutativity of the product on the extended reals.
-/
import proofs.«176612_j41377714930209_1_alg».proof.Proof.Gen.KernelIdeal.Skeleton
import proofs.«176612_j41377714930209_1_alg».proof.Proof.KerMatmul
import proofs.«176612_j41377714930209_1_alg».proof.Proof.LibBroadcast3
import proofs.«176612_j41377714930209_1_alg».proof.Proof.Mlp
import Idealize.ShloMosaic.Lib.ValueLayout
import Idealize.ShloMosaic.Lib.Pipeline.Value

noncomputable section

namespace Cert.KerPayload

open Cert.KernelIdeal Cert.KernelIdeal.Gen Idealize.ShloMosaic Idealize.ShloMosaic.ValueIdx

/-- The first hidden layer on a block: the coordinates `x : [16, 1024, 2]`, the weights `w : [16, 20, 2]`, the biases
    `β : [16, 20]`. -/
def first (x : FVec Ideal S16x1024x2 .f32) (w : FVec Ideal S16x20x2 .f32) (β : FVec Ideal S16x20 .f32) : FVec Ideal S16x20x1024 .f32 :=
  sin (mulf (broadcast S16x20x1024 (Scalar.ofBits .f32 0x41A00000#32))
    (addf (matmul dot_S16x20x2_S16x2x1024_S16x20x1024_2_1_1_2_0_0 (some .fp32) (shapeCast S16x20x2 w shapeCasts_S16x20x2_S16x20x2)
        (transpose S16x2x1024 [0, 2, 1] x transposes_S16x1024x2_p0_2_1_S16x2x1024) (constant S16x20x1024 .f32 0x00000000#32))
      (broadcastTo S16x20x1024 (shapeCast S16x20x1 (shapeCast S16x20 β shapeCasts_S16x20_S16x20) shapeCasts_S16x20_S16x20x1) broadcasts_S16x20x1_S16x20x1024)))

/-- A later hidden layer on a block: the previous values `h : [16, 20, 1024]`, the weights `w : [16, 20, 20]`, the biases
    `β : [16, 20]`. -/
def later (h : FVec Ideal S16x20x1024 .f32) (w : FVec Ideal S16x20x20 .f32) (β : FVec Ideal S16x20 .f32) : FVec Ideal S16x20x1024 .f32 :=
  sin (mulf (broadcast S16x20x1024 (Scalar.ofBits .f32 0x41A00000#32))
    (addf (matmul dot_S16x20x20_S16x20x1024_S16x20x1024_2_1_1_2_0_0 (some .fp32) (shapeCast S16x20x20 w shapeCasts_S16x20x20_S16x20x20) h (constant S16x20x1024 .f32 0x00000000#32))
      (broadcastTo S16x20x1024 (shapeCast S16x20x1 (shapeCast S16x20 β shapeCasts_S16x20_S16x20) shapeCasts_S16x20_S16x20x1) broadcasts_S16x20x1_S16x20x1024)))

/-- The output unit on a block: the last hidden values `h : [16, 20, 1024]`, the weight row `w : [16, 1, 20]`, the bias
    `β : [16, 1]`. -/
def last (h : FVec Ideal S16x20x1024 .f32) (w : FVec Ideal S16x1x20 .f32) (β : FVec Ideal S16x1 .f32) : FVec Ideal S16x1x1024 .f32 :=
  minimumf (broadcast S16x1x1024 (Scalar.ofBits .f32 0x3F800000#32))
    (maximumf (broadcast S16x1x1024 (Scalar.ofBits .f32 0x00000000#32))
      (addf (matmul dot_S16x1x20_S16x20x1024_S16x1x1024_2_1_1_2_0_0 (some .fp32) (shapeCast S16x1x20 w shapeCasts_S16x1x20_S16x1x20) h (constant S16x1x1024 .f32 0x00000000#32))
        (broadcastTo S16x1x1024 (shapeCast S16x1x1 (shapeCast S16x1 β shapeCasts_S16x1_S16x1) shapeCasts_S16x1_S16x1x1) broadcasts_S16x1x1_S16x1x1024)))

/-- The body's stored value is the composition of the four layers on its nine loaded blocks. -/
theorem payload_eq (x0 : FVec Ideal S16x1024x2 .f32) (x1 : FVec Ideal S16x20x2 .f32) (x2 : FVec Ideal S16x20 .f32)
    (x3 : FVec Ideal S16x20x20 .f32) (x4 : FVec Ideal S16x20 .f32) (x5 : FVec Ideal S16x20x20 .f32) (x6 : FVec Ideal S16x20 .f32)
    (x7 : FVec Ideal S16x1x20 .f32) (x8 : FVec Ideal S16x1 .f32) :
    k0_pay1 (F := Ideal) (k0_pay2 (F := Ideal) x0 x1 x2 x3 x4 x5 x6) x7 x8 = last (later (later (first x0 x1 x2) x3 x4) x5 x6) x7 x8 := rfl

/-- The first layer at sample `p`, unit `o`, point `q`. -/
theorem first_apply (x : FVec Ideal S16x1024x2 .f32) (w : FVec Ideal S16x20x2 .f32) (β : FVec Ideal S16x20 .f32)
    (p : Fin 16) (o : Fin 20) (q : Fin 1024) :
    first x w β (ix3 p o q) = Cert.Mlp.hidden (fun k => x (ix3 p q k)) (fun k => w (ix3 p o k)) (β (ix2 p o)) := by
  unfold first
  show Ideal.sin (Ideal.ofBits .f32 0x41A00000#32 * (matmul dot_S16x20x2_S16x2x1024_S16x20x1024_2_1_1_2_0_0 (some .fp32) (shapeCast S16x20x2 w shapeCasts_S16x20x2_S16x20x2)
        (transpose S16x2x1024 [0, 2, 1] x transposes_S16x1024x2_p0_2_1_S16x2x1024) (constant S16x20x1024 .f32 0x00000000#32) (ix3 p o q)
      + broadcastTo S16x20x1024 (shapeCast S16x20x1 (shapeCast S16x20 β shapeCasts_S16x20_S16x20) shapeCasts_S16x20_S16x20x1) broadcasts_S16x20x1_S16x20x1024 (ix3 p o q))) = _
  rw [Cert.KerMatmul.mm1_apply, Cert.Broadcast3.broadcastTo_ab1_abc_apply, Cert.Broadcast3.shapeCast_ab_ab1_apply, shapeCast_self, shapeCast_self]
  have ht : ∀ k : Fin 2, transpose S16x2x1024 [0, 2, 1] x transposes_S16x1024x2_p0_2_1_S16x2x1024 (ix3 p k q) = x (ix3 p q k) :=
    fun k => transpose_ix3_021_apply x transposes_S16x1024x2_p0_2_1_S16x2x1024 p k q
  simp only [ht]
  exact Cert.Mlp.hidden_comm (fun k => x (ix3 p q k)) (fun k => w (ix3 p o k)) (β (ix2 p o))

/-- A later layer at sample `p`, unit `o`, point `q`: the unit of the previous layer's values at that sample and point. -/
theorem later_apply (h : FVec Ideal S16x20x1024 .f32) (w : FVec Ideal S16x20x20 .f32) (β : FVec Ideal S16x20 .f32)
    (p : Fin 16) (o : Fin 20) (q : Fin 1024) :
    later h w β (ix3 p o q) = Cert.Mlp.hidden (fun k => h (ix3 p k q)) (fun k => w (ix3 p o k)) (β (ix2 p o)) := by
  unfold later
  show Ideal.sin (Ideal.ofBits .f32 0x41A00000#32 * (matmul dot_S16x20x20_S16x20x1024_S16x20x1024_2_1_1_2_0_0 (some .fp32) (shapeCast S16x20x20 w shapeCasts_S16x20x20_S16x20x20)
        h (constant S16x20x1024 .f32 0x00000000#32) (ix3 p o q)
      + broadcastTo S16x20x1024 (shapeCast S16x20x1 (shapeCast S16x20 β shapeCasts_S16x20_S16x20) shapeCasts_S16x20_S16x20x1) broadcasts_S16x20x1_S16x20x1024 (ix3 p o q))) = _
  rw [Cert.KerMatmul.mm2_apply, Cert.Broadcast3.broadcastTo_ab1_abc_apply, Cert.Broadcast3.shapeCast_ab_ab1_apply, shapeCast_self, shapeCast_self]
  exact Cert.Mlp.hidden_comm (fun k => h (ix3 p k q)) (fun k => w (ix3 p o k)) (β (ix2 p o))

/-- The output unit at sample `p` and point `q`. -/
theorem last_apply (h : FVec Ideal S16x20x1024 .f32) (w : FVec Ideal S16x1x20 .f32) (β : FVec Ideal S16x1 .f32)
    (p : Fin 16) (z : Fin 1) (q : Fin 1024) :
    last h w β (ix3 p z q) = Cert.Mlp.clamped (fun k => h (ix3 p k q)) (fun k => w (ix3 p z k)) (β (ix2 p z)) := by
  unfold last
  show min (Ideal.ofBits .f32 0x3F800000#32) (max (Ideal.ofBits .f32 0x00000000#32)
      (matmul dot_S16x1x20_S16x20x1024_S16x1x1024_2_1_1_2_0_0 (some .fp32) (shapeCast S16x1x20 w shapeCasts_S16x1x20_S16x1x20) h (constant S16x1x1024 .f32 0x00000000#32) (ix3 p z q)
      + broadcastTo S16x1x1024 (shapeCast S16x1x1 (shapeCast S16x1 β shapeCasts_S16x1_S16x1) shapeCasts_S16x1_S16x1x1) broadcasts_S16x1x1_S16x1x1024 (ix3 p z q))) = _
  rw [Cert.KerMatmul.mm3_apply, Cert.Broadcast3.broadcastTo_ab1_abc_apply, Cert.Broadcast3.shapeCast_ab_ab1_apply, shapeCast_self, shapeCast_self]
  exact Cert.Mlp.clamped_comm (fun k => h (ix3 p k q)) (fun k => w (ix3 p z k)) (β (ix2 p z))

/-- THE BODY'S STORED VALUE at sample `p` and point `q` of the block is the network of the block's own entries: the
    point's two coordinates, and the sample's weights and biases. -/
theorem payload_apply (x0 : FVec Ideal S16x1024x2 .f32) (x1 : FVec Ideal S16x20x2 .f32) (x2 : FVec Ideal S16x20 .f32)
    (x3 : FVec Ideal S16x20x20 .f32) (x4 : FVec Ideal S16x20 .f32) (x5 : FVec Ideal S16x20x20 .f32) (x6 : FVec Ideal S16x20 .f32)
    (x7 : FVec Ideal S16x1x20 .f32) (x8 : FVec Ideal S16x1 .f32) (p : Fin 16) (q : Fin 1024) :
    k0_pay1 (F := Ideal) (k0_pay2 (F := Ideal) x0 x1 x2 x3 x4 x5 x6) x7 x8 (ix3 p (0 : Fin 1) q)
      = Cert.Mlp.netAt (S := 16) (N := 1024) x0 x1 x2 x3 x4 x5 x6 x7 x8 p q := by
  rw [payload_eq, last_apply]
  unfold Cert.Mlp.netAt Cert.Mlp.net
  congr 1
  funext k3
  rw [later_apply]
  congr 1
  funext k2
  rw [later_apply]
  congr 1
  funext k1
  exact first_apply x0 x1 x2 p k1 q

end Cert.KerPayload

end
-- ==== Proof.KerBlocks.lean ====
/-
  From the blocks the kernel writes back to the whole array it leaves.

  The grid has 32 × 4 points; point `(i, j)` works on samples `16 i … 16 i + 15` and points `1024 j … 1024 j + 1023`:
  it reads that block of the coordinates, the sixteen samples' weights and biases (which do not depend on `j`), and
  writes back the block `[16 i …, 0, 1024 j …]` of the `[512, 1, 4096]` output. An element of a block sits in its array at
  (block index) × (block extent) + (position inside the block), axis by axis, so the body's value at sample `p`, point
  `q` of the block — the network of the block's own entries — is the network of the WHOLE arrays at sample `16 i + p` and
  point `1024 j + q`: every written block is the restriction of one function of the whole arrays. The 128 blocks cover
  the output (index `(b, 0, n)` lies in the block of point `(b / 16, n / 1024)`), so the array the region leaves is that
  function.
-/
import proofs.«176612_j41377714930209_1_alg».proof.Proof.Gen.KernelIdeal.Frame
import proofs.«176612_j41377714930209_1_alg».proof.Proof.KerPayload
import Idealize.ShloMosaic.Lib.Pipeline.Value

set_option maxRecDepth 16384

noncomputable section

namespace Cert.KerBlocks

open Cert.KernelIdeal Cert.KernelIdeal.Gen Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- The network at one sample and point depends on the arrays only through that sample's weights and that point's
    coordinates: two families of arrays that agree there give the same value. -/
theorem netAt_congr {S N S' N' : ℕ}
    (X : (⟨3, ![S, N, 2]⟩ : Shape).Idx → EReal) (W1 : (⟨3, ![S, 20, 2]⟩ : Shape).Idx → EReal) (B1 : (⟨2, ![S, 20]⟩ : Shape).Idx → EReal)
    (W2 : (⟨3, ![S, 20, 20]⟩ : Shape).Idx → EReal) (B2 : (⟨2, ![S, 20]⟩ : Shape).Idx → EReal)
    (W3 : (⟨3, ![S, 20, 20]⟩ : Shape).Idx → EReal) (B3 : (⟨2, ![S, 20]⟩ : Shape).Idx → EReal)
    (W4 : (⟨3, ![S, 1, 20]⟩ : Shape).Idx → EReal) (B4 : (⟨2, ![S, 1]⟩ : Shape).Idx → EReal)
    (X' : (⟨3, ![S', N', 2]⟩ : Shape).Idx → EReal) (W1' : (⟨3, ![S', 20, 2]⟩ : Shape).Idx → EReal) (B1' : (⟨2, ![S', 20]⟩ : Shape).Idx → EReal)
    (W2' : (⟨3, ![S', 20, 20]⟩ : Shape).Idx → EReal) (B2' : (⟨2, ![S', 20]⟩ : Shape).Idx → EReal)
    (W3' : (⟨3, ![S', 20, 20]⟩ : Shape).Idx → EReal) (B3' : (⟨2, ![S', 20]⟩ : Shape).Idx → EReal)
    (W4' : (⟨3, ![S', 1, 20]⟩ : Shape).Idx → EReal) (B4' : (⟨2, ![S', 1]⟩ : Shape).Idx → EReal)
    (b : Fin S) (n : Fin N) (b' : Fin S') (n' : Fin N')
    (h0 : ∀ k, X (ix3 b n k) = X' (ix3 b' n' k))
    (h1 : ∀ o k, W1 (ix3 b o k) = W1' (ix3 b' o k)) (h2 : ∀ o, B1 (ix2 b o) = B1' (ix2 b' o))
    (h3 : ∀ o k, W2 (ix3 b o k) = W2' (ix3 b' o k)) (h4 : ∀ o, B2 (ix2 b o) = B2' (ix2 b' o))
    (h5 : ∀ o k, W3 (ix3 b o k) = W3' (ix3 b' o k)) (h6 : ∀ o, B3 (ix2 b o) = B3' (ix2 b' o))
    (h7 : ∀ k, W4 (ix3 b (0 : Fin 1) k) = W4' (ix3 b' (0 : Fin 1) k)) (h8 : B4 (ix2 b (0 : Fin 1)) = B4' (ix2 b' (0 : Fin 1))) :
    Cert.Mlp.netAt X W1 B1 W2 B2 W3 B3 W4 B4 b n = Cert.Mlp.netAt X' W1' B1' W2' B2' W3' B3' W4' B4' b' n' := by
  unfold Cert.Mlp.netAt
  simp only [h0, h1, h2, h3, h4, h5, h6, h7, h8]

/-- The array the region leaves, as one function of the arrays it finds: the network, laid out `[512, 1, 4096]`. -/
abbrev whole (c : Dev nD) : S512x1x4096.Idx → EReal :=
  Cert.Mlp.resultT (V m c main_arg0) (V m c main_v1) (V m c main_v2) (V m c main_v4) (V m c main_v5) (V m c main_v7)
    (V m c main_v8) (V m c main_v10) (V m c main_v11)

/-- The printed index maps, decided over the 128 grid points: every input window's block index on the sample axis is
    the output's, the coordinates' block index on the point axis is the output's on its last axis, and every other
    block index is 0; the output's block indices stay in their ranges. -/
theorem idx_facts : ∀ t : Fin cfg0.N,
    win0_0.index t (0 : Fin 3) = win0_9.index t (0 : Fin 3)
    ∧ win0_0.index t (1 : Fin 3) = win0_9.index t (2 : Fin 3)
    ∧ win0_0.index t (2 : Fin 3) = 0
    ∧ win0_1.index t (0 : Fin 3) = win0_9.index t (0 : Fin 3)
    ∧ win0_1.index t (1 : Fin 3) = 0
    ∧ win0_1.index t (2 : Fin 3) = 0
    ∧ win0_2.index t (0 : Fin 2) = win0_9.index t (0 : Fin 3)
    ∧ win0_2.index t (1 : Fin 2) = 0
    ∧ win0_3.index t (0 : Fin 3) = win0_9.index t (0 : Fin 3)
    ∧ win0_3.index t (1 : Fin 3) = 0
    ∧ win0_3.index t (2 : Fin 3) = 0
    ∧ win0_4.index t (0 : Fin 2) = win0_9.index t (0 : Fin 3)
    ∧ win0_4.index t (1 : Fin 2) = 0
    ∧ win0_5.index t (0 : Fin 3) = win0_9.index t (0 : Fin 3)
    ∧ win0_5.index t (1 : Fin 3) = 0
    ∧ win0_5.index t (2 : Fin 3) = 0
    ∧ win0_6.index t (0 : Fin 2) = win0_9.index t (0 : Fin 3)
    ∧ win0_6.index t (1 : Fin 2) = 0
    ∧ win0_7.index t (0 : Fin 3) = win0_9.index t (0 : Fin 3)
    ∧ win0_7.index t (1 : Fin 3) = 0
    ∧ win0_7.index t (2 : Fin 3) = 0
    ∧ win0_8.index t (0 : Fin 2) = win0_9.index t (0 : Fin 3)
    ∧ win0_8.index t (1 : Fin 2) = 0
    ∧ win0_9.index t (1 : Fin 3) = 0
    ∧ win0_9.index t (0 : Fin 3) ≤ 31
    ∧ win0_9.index t (2 : Fin 3) ≤ 3 :=
  (by decide +kernel : ∀ t : Fin grid0.N, _)

/-- Every block of the output is some point's. -/
theorem idx_onto : ∀ (q0 : Fin 32) (q2 : Fin 4), ∃ t : Fin cfg0.N, win0_9.index t = ![q0.val, 0, q2.val] :=
  (by decide +kernel : ∀ (q0 : Fin 32) (q2 : Fin 4), ∃ t : Fin grid0.N, win0_9.index t = ![q0.val, 0, q2.val])

/-- Window 0's block at point `t`, read at a block index, is the array `main_arg0` at the corresponding array index. -/
theorem blk0_read (c : Dev nD) (t : Fin cfg0.N) (p : Fin 16) (q : Fin 1024) (k : Fin 2) (b : Fin 512) (n : Fin 4096)
    (hb : b.val = win0_9.index t (0 : Fin 3) * 16 + p.val) (hn : n.val = win0_9.index t (2 : Fin 3) * 1024 + q.val) :
    iblk m c 0 t (ix3 p q k) = V m c main_arg0 (ix3 b n k) := by
  obtain ⟨e0, e1, e2, e3, e4, e5, e6, e7, e8, e9, e10, e11, e12, e13, e14, e15, e16, e17, e18, e19, e20, e21, e22, e23, e24, e25⟩ := idx_facts t
  show V m c main_arg0 (((cfg0.win 0).blk t).view.emb (ix3 p q k)) = V m c main_arg0 (ix3 b n k)
  refine congrArg (V m c main_arg0) (funext fun a => Fin.ext ?_)
  match a with
  | ⟨0, _⟩ => show win0_0.index t (0 : Fin 3) * 16 + 1 * p.val = b.val; omega
  | ⟨1, _⟩ => show win0_0.index t (1 : Fin 3) * 1024 + 1 * q.val = n.val; omega
  | ⟨2, _⟩ => show win0_0.index t (2 : Fin 3) * 2 + 1 * k.val = k.val; omega

/-- Window 1's block at point `t`, read at a block index, is the array `main_v1` at the corresponding array index. -/
theorem blk1_read (c : Dev nD) (t : Fin cfg0.N) (p : Fin 16) (o : Fin 20) (k : Fin 2) (b : Fin 512)
    (hb : b.val = win0_9.index t (0 : Fin 3) * 16 + p.val) :
    iblk m c 1 t (ix3 p o k) = V m c main_v1 (ix3 b o k) := by
  obtain ⟨e0, e1, e2, e3, e4, e5, e6, e7, e8, e9, e10, e11, e12, e13, e14, e15, e16, e17, e18, e19, e20, e21, e22, e23, e24, e25⟩ := idx_facts t
  show V m c main_v1 (((cfg0.win 1).blk t).view.emb (ix3 p o k)) = V m c main_v1 (ix3 b o k)
  refine congrArg (V m c main_v1) (funext fun a => Fin.ext ?_)
  match a with
  | ⟨0, _⟩ => show win0_1.index t (0 : Fin 3) * 16 + 1 * p.val = b.val; omega
  | ⟨1, _⟩ => show win0_1.index t (1 : Fin 3) * 20 + 1 * o.val = o.val; omega
  | ⟨2, _⟩ => show win0_1.index t (2 : Fin 3) * 2 + 1 * k.val = k.val; omega

/-- Window 2's block at point `t`, read at a block index, is the array `main_v2` at the corresponding array index. -/
theorem blk2_read (c : Dev nD) (t : Fin cfg0.N) (p : Fin 16) (o : Fin 20) (b : Fin 512)
    (hb : b.val = win0_9.index t (0 : Fin 3) * 16 + p.val) :
    iblk m c 2 t (ix2 p o) = V m c main_v2 (ix2 b o) := by
  obtain ⟨e0, e1, e2, e3, e4, e5, e6, e7, e8, e9, e10, e11, e12, e13, e14, e15, e16, e17, e18, e19, e20, e21, e22, e23, e24, e25⟩ := idx_facts t
  show V m c main_v2 (((cfg0.win 2).blk t).view.emb (ix2 p o)) = V m c main_v2 (ix2 b o)
  refine congrArg (V m c main_v2) (funext fun a => Fin.ext ?_)
  match a with
  | ⟨0, _⟩ => show win0_2.index t (0 : Fin 2) * 16 + 1 * p.val = b.val; omega
  | ⟨1, _⟩ => show win0_2.index t (1 : Fin 2) * 20 + 1 * o.val = o.val; omega

/-- Window 3's block at point `t`, read at a block index, is the array `main_v4` at the corresponding array index. -/
theorem blk3_read (c : Dev nD) (t : Fin cfg0.N) (p : Fin 16) (o : Fin 20) (k : Fin 20) (b : Fin 512)
    (hb : b.val = win0_9.index t (0 : Fin 3) * 16 + p.val) :
    iblk m c 3 t (ix3 p o k) = V m c main_v4 (ix3 b o k) := by
  obtain ⟨e0, e1, e2, e3, e4, e5, e6, e7, e8, e9, e10, e11, e12, e13, e14, e15, e16, e17, e18, e19, e20, e21, e22, e23, e24, e25⟩ := idx_facts t
  show V m c main_v4 (((cfg0.win 3).blk t).view.emb (ix3 p o k)) = V m c main_v4 (ix3 b o k)
  refine congrArg (V m c main_v4) (funext fun a => Fin.ext ?_)
  match a with
  | ⟨0, _⟩ => show win0_3.index t (0 : Fin 3) * 16 + 1 * p.val = b.val; omega
  | ⟨1, _⟩ => show win0_3.index t (1 : Fin 3) * 20 + 1 * o.val = o.val; omega
  | ⟨2, _⟩ => show win0_3.index t (2 : Fin 3) * 20 + 1 * k.val = k.val; omega

/-- Window 4's block at point `t`, read at a block index, is the array `main_v5` at the corresponding array index. -/
theorem blk4_read (c : Dev nD) (t : Fin cfg0.N) (p : Fin 16) (o : Fin 20) (b : Fin 512)
    (hb : b.val = win0_9.index t (0 : Fin 3) * 16 + p.val) :
    iblk m c 4 t (ix2 p o) = V m c main_v5 (ix2 b o) := by
  obtain ⟨e0, e1, e2, e3, e4, e5, e6, e7, e8, e9, e10, e11, e12, e13, e14, e15, e16, e17, e18, e19, e20, e21, e22, e23, e24, e25⟩ := idx_facts t
  show V m c main_v5 (((cfg0.win 4).blk t).view.emb (ix2 p o)) = V m c main_v5 (ix2 b o)
  refine congrArg (V m c main_v5) (funext fun a => Fin.ext ?_)
  match a with
  | ⟨0, _⟩ => show win0_4.index t (0 : Fin 2) * 16 + 1 * p.val = b.val; omega
  | ⟨1, _⟩ => show win0_4.index t (1 : Fin 2) * 20 + 1 * o.val = o.val; omega

/-- Window 5's block at point `t`, read at a block index, is the array `main_v7` at the corresponding array index. -/
theorem blk5_read (c : Dev nD) (t : Fin cfg0.N) (p : Fin 16) (o : Fin 20) (k : Fin 20) (b : Fin 512)
    (hb : b.val = win0_9.index t (0 : Fin 3) * 16 + p.val) :
    iblk m c 5 t (ix3 p o k) = V m c main_v7 (ix3 b o k) := by
  obtain ⟨e0, e1, e2, e3, e4, e5, e6, e7, e8, e9, e10, e11, e12, e13, e14, e15, e16, e17, e18, e19, e20, e21, e22, e23, e24, e25⟩ := idx_facts t
  show V m c main_v7 (((cfg0.win 5).blk t).view.emb (ix3 p o k)) = V m c main_v7 (ix3 b o k)
  refine congrArg (V m c main_v7) (funext fun a => Fin.ext ?_)
  match a with
  | ⟨0, _⟩ => show win0_5.index t (0 : Fin 3) * 16 + 1 * p.val = b.val; omega
  | ⟨1, _⟩ => show win0_5.index t (1 : Fin 3) * 20 + 1 * o.val = o.val; omega
  | ⟨2, _⟩ => show win0_5.index t (2 : Fin 3) * 20 + 1 * k.val = k.val; omega

/-- Window 6's block at point `t`, read at a block index, is the array `main_v8` at the corresponding array index. -/
theorem blk6_read (c : Dev nD) (t : Fin cfg0.N) (p : Fin 16) (o : Fin 20) (b : Fin 512)
    (hb : b.val = win0_9.index t (0 : Fin 3) * 16 + p.val) :
    iblk m c 6 t (ix2 p o) = V m c main_v8 (ix2 b o) := by
  obtain ⟨e0, e1, e2, e3, e4, e5, e6, e7, e8, e9, e10, e11, e12, e13, e14, e15, e16, e17, e18, e19, e20, e21, e22, e23, e24, e25⟩ := idx_facts t
  show V m c main_v8 (((cfg0.win 6).blk t).view.emb (ix2 p o)) = V m c main_v8 (ix2 b o)
  refine congrArg (V m c main_v8) (funext fun a => Fin.ext ?_)
  match a with
  | ⟨0, _⟩ => show win0_6.index t (0 : Fin 2) * 16 + 1 * p.val = b.val; omega
  | ⟨1, _⟩ => show win0_6.index t (1 : Fin 2) * 20 + 1 * o.val = o.val; omega

/-- Window 7's block at point `t`, read at a block index, is the array `main_v10` at the corresponding array index. -/
theorem blk7_read (c : Dev nD) (t : Fin cfg0.N) (p : Fin 16) (z : Fin 1) (k : Fin 20) (b : Fin 512)
    (hb : b.val = win0_9.index t (0 : Fin 3) * 16 + p.val) :
    iblk m c 7 t (ix3 p z k) = V m c main_v10 (ix3 b z k) := by
  obtain ⟨e0, e1, e2, e3, e4, e5, e6, e7, e8, e9, e10, e11, e12, e13, e14, e15, e16, e17, e18, e19, e20, e21, e22, e23, e24, e25⟩ := idx_facts t
  show V m c main_v10 (((cfg0.win 7).blk t).view.emb (ix3 p z k)) = V m c main_v10 (ix3 b z k)
  refine congrArg (V m c main_v10) (funext fun a => Fin.ext ?_)
  match a with
  | ⟨0, _⟩ => show win0_7.index t (0 : Fin 3) * 16 + 1 * p.val = b.val; omega
  | ⟨1, _⟩ => show win0_7.index t (1 : Fin 3) * 1 + 1 * z.val = z.val; omega
  | ⟨2, _⟩ => show win0_7.index t (2 : Fin 3) * 20 + 1 * k.val = k.val; omega

/-- Window 8's block at point `t`, read at a block index, is the array `main_v11` at the corresponding array index. -/
theorem blk8_read (c : Dev nD) (t : Fin cfg0.N) (p : Fin 16) (z : Fin 1) (b : Fin 512)
    (hb : b.val = win0_9.index t (0 : Fin 3) * 16 + p.val) :
    iblk m c 8 t (ix2 p z) = V m c main_v11 (ix2 b z) := by
  obtain ⟨e0, e1, e2, e3, e4, e5, e6, e7, e8, e9, e10, e11, e12, e13, e14, e15, e16, e17, e18, e19, e20, e21, e22, e23, e24, e25⟩ := idx_facts t
  show V m c main_v11 (((cfg0.win 8).blk t).view.emb (ix2 p z)) = V m c main_v11 (ix2 b z)
  refine congrArg (V m c main_v11) (funext fun a => Fin.ext ?_)
  match a with
  | ⟨0, _⟩ => show win0_8.index t (0 : Fin 2) * 16 + 1 * p.val = b.val; omega
  | ⟨1, _⟩ => show win0_8.index t (1 : Fin 2) * 1 + 1 * z.val = z.val; omega

/-- WHAT POINT `t` WRITES BACK is block `t` of the network of the whole arrays. -/
theorem flushed9_eq (c : Dev nD) (t : Fin cfg0.N) :
    (dats m 0 c).flushed 9 t = ((cfg0.win 9).blk t).view.read (Elt Ideal) (whole m c) := by
  show (cfg0.win 9).cut (grid0.coords t) ((dats m 0 c).after 9 t) = _
  rw [after0_9]
  unfold out0_9
  rw [View.canon_unit_zero zero3]
  simp only [View.ld_unit_zero (S := S16x1024x2) zero3, View.ld_unit_zero (S := S16x20x2) zero3, View.ld_unit_zero (S := S16x20) zero2,
    View.ld_unit_zero (S := S16x20x20) zero3, View.ld_unit_zero (S := S16x1x20) zero3, View.ld_unit_zero (S := S16x1) zero2]
  obtain ⟨e0, e1, e2, e3, e4, e5, e6, e7, e8, e9, e10, e11, e12, e13, e14, e15, e16, e17, e18, e19, e20, e21, e22, e23, e24, e25⟩ := idx_facts t
  refine funext fun (j : S16x1x1024.Idx) => ?_
  obtain ⟨p, z, q, rfl⟩ : ∃ (p : Fin 16) (z : Fin 1) (q : Fin 1024), j = ix3 p z q := ⟨j 0, j 1, j 2, eq_ix3 j⟩
  obtain rfl : z = 0 := Subsingleton.elim _ _
  show k0_pay1 (F := Ideal) (k0_pay2 (F := Ideal) (iblk m c 0 t) (iblk m c 1 t) (iblk m c 2 t) (iblk m c 3 t) (iblk m c 4 t) (iblk m c 5 t) (iblk m c 6 t))
      (iblk m c 7 t) (iblk m c 8 t) (ix3 p (0 : Fin 1) q)
    = Cert.Mlp.netAt (V m c main_arg0) (V m c main_v1) (V m c main_v2) (V m c main_v4) (V m c main_v5) (V m c main_v7)
        (V m c main_v8) (V m c main_v10) (V m c main_v11)
        ((((cfg0.win 9).blk t).view.emb (ix3 p (0 : Fin 1) q)) 0) ((((cfg0.win 9).blk t).view.emb (ix3 p (0 : Fin 1) q)) 2)
  refine (Cert.KerPayload.payload_apply (iblk m c 0 t) (iblk m c 1 t) (iblk m c 2 t) (iblk m c 3 t) (iblk m c 4 t) (iblk m c 5 t)
    (iblk m c 6 t) (iblk m c 7 t) (iblk m c 8 t) p q).trans ?_
  have hb : ((((cfg0.win 9).blk t).view.emb (ix3 p (0 : Fin 1) q)) 0).val = win0_9.index t (0 : Fin 3) * 16 + p.val := by
    show win0_9.index t (0 : Fin 3) * 16 + 1 * p.val = _; omega
  have hn : ((((cfg0.win 9).blk t).view.emb (ix3 p (0 : Fin 1) q)) 2).val = win0_9.index t (2 : Fin 3) * 1024 + q.val := by
    show win0_9.index t (2 : Fin 3) * 1024 + 1 * q.val = _; omega
  exact netAt_congr _ _ _ _ _ _ _ _ _ _ _ _ _ _ _ _ _ _ p q _ _
    (fun k => blk0_read m c t p q k _ _ hb hn)
    (fun o k => blk1_read m c t p o k _ hb) (fun o => blk2_read m c t p o _ hb)
    (fun o k => blk3_read m c t p o k _ hb) (fun o => blk4_read m c t p o _ hb)
    (fun o k => blk5_read m c t p o k _ hb) (fun o => blk6_read m c t p o _ hb)
    (fun k => blk7_read m c t p 0 k _ hb) (blk8_read m c t p 0 _ hb)

/-- An index of the output array is in point `t`'s block iff each coordinate is in the block's range on its axis. -/
theorem mem_blk9 (t : Fin cfg0.N) (i : S512x1x4096.Idx) :
    i ∈ ((cfg0.win 9).blk t).view.set ↔ ∀ a : Fin 3, win0_9.index t a * S16x1x1024.size a ≤ (i a).val ∧ (i a).val < win0_9.index t a * S16x1x1024.size a + S16x1x1024.size a := by
  show i ∈ ((View.whole main_v12).slice (win0_9.rect t)).set ↔ _
  rw [View.set_slice_whole, Rect.mem_set_unit]
  exact Iff.rfl

/-- The blocks cover the output: `(b, 0, n)` lies in the block of the point with block indices `(b / 16, 0, n / 1024)`. -/
theorem cover9 (i : S512x1x4096.Idx) : ∃ t : Fin cfg0.N, (cfg0.win 9).flush t = true ∧ i ∈ ((cfg0.win 9).blk t).view.set := by
  have hi0 : (i 0).val < 512 := (i 0).isLt
  have hi1 : (i 1).val < 1 := (i 1).isLt
  have hi2 : (i 2).val < 4096 := (i 2).isLt
  obtain ⟨t, ht⟩ := idx_onto ⟨(i 0).val / 16, by omega⟩ ⟨(i 2).val / 1024, by omega⟩
  have q0 : win0_9.index t (0 : Fin 3) = (i 0).val / 16 := congrFun ht 0
  have q1 : win0_9.index t (1 : Fin 3) = 0 := congrFun ht 1
  have q2 : win0_9.index t (2 : Fin 3) = (i 2).val / 1024 := congrFun ht 2
  refine ⟨t, flush0_9 t, ?_⟩
  rw [mem_blk9]
  intro a
  match a with
  | ⟨0, _⟩ => show win0_9.index t (0 : Fin 3) * 16 ≤ (i 0).val ∧ (i 0).val < win0_9.index t (0 : Fin 3) * 16 + 16; omega
  | ⟨1, _⟩ => show win0_9.index t (1 : Fin 3) * 1 ≤ (i 1).val ∧ (i 1).val < win0_9.index t (1 : Fin 3) * 1 + 1; omega
  | ⟨2, _⟩ => show win0_9.index t (2 : Fin 3) * 1024 ≤ (i 2).val ∧ (i 2).val < win0_9.index t (2 : Fin 3) * 1024 + 1024; omega

/-- THE ARRAY the region leaves is the network of the arrays it finds. -/
theorem final9 (c : Dev nD) : (dats m 0 c).arrAt 9 cfg0.N = whole m c :=
  (dats m 0 c).arrAt_eq_of_cover 9 (whole m c) (fun t _ => flushed9_eq m c t) (fun i => cover9 i)

end Cert.KerBlocks

end
-- ==== Proof.KerHost.lean ====
/-
  The kernel program's host operations around its one region, on the extended reals.

  Before the region the program cuts the flat weight array `[512, 921]` into eight pieces — for each of the three hidden
  layers a block of weights and a block of biases, then the output unit's weight row and its bias — and reads each
  block of weights as rows of the layer's width. These are the very cuts and reshapes the reference performs, so each
  array the region finds is the reference's array of the same name, with no law between them.
  After the region the program exchanges the last two axes of the region's output `[512, 1, 4096]`; exchanging the last
  two axes of the network laid out `[512, 1, 4096]` gives the network laid out `[512, 4096, 1]`.
-/
import proofs.«176612_j41377714930209_1_alg».proof.Proof.Gen.KernelIdeal.Frame
import proofs.«176612_j41377714930209_1_alg».proof.Proof.Gen.ReferenceIdeal.Read
import proofs.«176612_j41377714930209_1_alg».proof.Proof.Mlp
import Idealize.ShloMosaic.Lib.StableHlo.Run
import Idealize.ShloMosaic.Lib.ValueLayout

noncomputable section

namespace Cert.KerHost

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ)

/-! ## Before the region -/

/-- The first layer's weights as the region finds them: columns 0–39 of the flat weight array, each row of 40 read as 20 rows of 2. It is the array the reference cuts and reshapes in the same way. -/
theorem entry_v1 (c : Dev nD) :
    Gen.V m c main_v1 = Cert.ReferenceIdeal.Read.val_main_v1 (F := Ideal) (m ((c : Thread nD τ).loc main_arg1)) := by
  show StableHlo.after hostOps0 (fun b => m (c, b)) (Proc.devRef .tc main_v1) = _
  after_results
  rfl

/-- The first layer's biases as the region finds them: columns 40–59 of the flat weight array. It is the array the reference cuts and reshapes in the same way. -/
theorem entry_v2 (c : Dev nD) :
    Gen.V m c main_v2 = Cert.ReferenceIdeal.Read.val_main_v2 (F := Ideal) (m ((c : Thread nD τ).loc main_arg1)) := by
  show StableHlo.after hostOps0 (fun b => m (c, b)) (Proc.devRef .tc main_v2) = _
  after_results
  rfl

/-- The second layer's weights as the region finds them: columns 60–459 of the flat weight array, each row of 400 read as 20 rows of 20. It is the array the reference cuts and reshapes in the same way. -/
theorem entry_v4 (c : Dev nD) :
    Gen.V m c main_v4 = Cert.ReferenceIdeal.Read.val_main_v4 (F := Ideal) (m ((c : Thread nD τ).loc main_arg1)) := by
  show StableHlo.after hostOps0 (fun b => m (c, b)) (Proc.devRef .tc main_v4) = _
  after_results
  rfl

/-- The second layer's biases as the region finds them: columns 460–479 of the flat weight array. It is the array the reference cuts and reshapes in the same way. -/
theorem entry_v5 (c : Dev nD) :
    Gen.V m c main_v5 = Cert.ReferenceIdeal.Read.val_main_v5 (F := Ideal) (m ((c : Thread nD τ).loc main_arg1)) := by
  show StableHlo.after hostOps0 (fun b => m (c, b)) (Proc.devRef .tc main_v5) = _
  after_results
  rfl

/-- The third layer's weights as the region finds them: columns 480–879 of the flat weight array, each row of 400 read as 20 rows of 20. It is the array the reference cuts and reshapes in the same way. -/
theorem entry_v7 (c : Dev nD) :
    Gen.V m c main_v7 = Cert.ReferenceIdeal.Read.val_main_v7 (F := Ideal) (m ((c : Thread nD τ).loc main_arg1)) := by
  show StableHlo.after hostOps0 (fun b => m (c, b)) (Proc.devRef .tc main_v7) = _
  after_results
  rfl

/-- The third layer's biases as the region finds them: columns 880–899 of the flat weight array. It is the array the reference cuts and reshapes in the same way. -/
theorem entry_v8 (c : Dev nD) :
    Gen.V m c main_v8 = Cert.ReferenceIdeal.Read.val_main_v8 (F := Ideal) (m ((c : Thread nD τ).loc main_arg1)) := by
  show StableHlo.after hostOps0 (fun b => m (c, b)) (Proc.devRef .tc main_v8) = _
  after_results
  rfl

/-- The output unit's weight row as the region finds it: columns 900–919 of the flat weight array, each row of 20 read as one row of 20. It is the array the reference cuts and reshapes in the same way. -/
theorem entry_v10 (c : Dev nD) :
    Gen.V m c main_v10 = Cert.ReferenceIdeal.Read.val_main_v10 (F := Ideal) (m ((c : Thread nD τ).loc main_arg1)) := by
  show StableHlo.after hostOps0 (fun b => m (c, b)) (Proc.devRef .tc main_v10) = _
  after_results
  rfl

/-- The output unit's bias as the region finds it: column 920 of the flat weight array. It is the array the reference cuts and reshapes in the same way. -/
theorem entry_v11 (c : Dev nD) :
    Gen.V m c main_v11 = Cert.ReferenceIdeal.Read.val_main_v11 (F := Ideal) (m ((c : Thread nD τ).loc main_arg1)) := by
  show StableHlo.after hostOps0 (fun b => m (c, b)) (Proc.devRef .tc main_v11) = _
  after_results
  rfl

/-! ## After the region -/

/-- The program's result is the region's output array `[512, 1, 4096]` with its last two axes exchanged. -/
theorem tail_v13 (c : Dev nD) :
    Pipeline.afterTail₀ cfgs (Gen.dats m) 0 (Gen.V0 m) [Gen.hostOps1] c main_v13
      = transpose S512x4096x1 [0, 2, 1] ((Gen.dats m 0 c).arrAt 9 cfg0.N) transposes_S512x1x4096_S512x4096x1_0_2_1 := by
  unfold Pipeline.afterTail₀
  show StableHlo.after hostOps1 _ (Proc.devRef .tc main_v13) = _
  after_results
  exact congrArg (fun x => transpose S512x4096x1 [0, 2, 1] x transposes_S512x1x4096_S512x4096x1_0_2_1)
    (Pipeline.withArrays_arr spec0 launch0.win.arr_inj c _ _ 9)

/-- Exchanging the last two axes of the network laid out `[512, 1, 4096]` gives it laid out `[512, 4096, 1]`: at
    `(b, n, 0)` the exchanged array reads `(b, 0, n)`, and both are the network at sample `b` and point `n`. -/
theorem result_transposed
    (X : (⟨3, ![512, 4096, 2]⟩ : Shape).Idx → EReal)
    (W1 : (⟨3, ![512, 20, 2]⟩ : Shape).Idx → EReal) (B1 : (⟨2, ![512, 20]⟩ : Shape).Idx → EReal)
    (W2 : (⟨3, ![512, 20, 20]⟩ : Shape).Idx → EReal) (B2 : (⟨2, ![512, 20]⟩ : Shape).Idx → EReal)
    (W3 : (⟨3, ![512, 20, 20]⟩ : Shape).Idx → EReal) (B3 : (⟨2, ![512, 20]⟩ : Shape).Idx → EReal)
    (W4 : (⟨3, ![512, 1, 20]⟩ : Shape).Idx → EReal) (B4 : (⟨2, ![512, 1]⟩ : Shape).Idx → EReal)
    (h : (⟨3, ![512, 1, 4096]⟩ : Shape).Transposes [0, 2, 1] ⟨3, ![512, 4096, 1]⟩) :
    transpose ⟨3, ![512, 4096, 1]⟩ [0, 2, 1] (Cert.Mlp.resultT X W1 B1 W2 B2 W3 B3 W4 B4) h
      = Cert.Mlp.result X W1 B1 W2 B2 W3 B3 W4 B4 := by
  funext i
  obtain ⟨b, n, z, rfl⟩ : ∃ (b : Fin 512) (n : Fin 4096) (z : Fin 1), i = ix3 b n z := ⟨i 0, i 1, i 2, eq_ix3 i⟩
  rw [transpose_ix3_021_apply]
  rfl

end Cert.KerHost

end
-- ==== Proof.KerRun.lean ====
/-
  The kernel program's run, read: its result array is the network of its two argument arrays.

  The region leaves the network of the arrays it finds, laid out `[512, 1, 4096]`; the arrays it finds are the
  coordinates as launched and the eight slices (reshaped) of the flat weight array as launched; the one host operation
  after the region exchanges the last two axes, which turns that layout into the reference's `[512, 4096, 1]`.
-/
import proofs.«176612_j41377714930209_1_alg».proof.Proof.Gen.KernelIdeal.Frame
import proofs.«176612_j41377714930209_1_alg».proof.Proof.KerBlocks
import proofs.«176612_j41377714930209_1_alg».proof.Proof.KerHost

noncomputable section

namespace Cert.KerRun

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The network of the launched arrays, laid out as the reference lays it out: the weights and biases are the slices
    of the flat weight array, reshaped, exactly as the reference takes them. -/
abbrev value (c : Dev nD) : (⟨3, ![512, 4096, 1]⟩ : Shape).Idx → EReal :=
  Cert.Mlp.result (m ((c : Thread nD τ).loc main_arg0))
        (Cert.ReferenceIdeal.Read.val_main_v1 (F := Ideal) (m ((c : Thread nD τ).loc main_arg1)))
        (Cert.ReferenceIdeal.Read.val_main_v2 (F := Ideal) (m ((c : Thread nD τ).loc main_arg1)))
        (Cert.ReferenceIdeal.Read.val_main_v4 (F := Ideal) (m ((c : Thread nD τ).loc main_arg1)))
        (Cert.ReferenceIdeal.Read.val_main_v5 (F := Ideal) (m ((c : Thread nD τ).loc main_arg1)))
        (Cert.ReferenceIdeal.Read.val_main_v7 (F := Ideal) (m ((c : Thread nD τ).loc main_arg1)))
        (Cert.ReferenceIdeal.Read.val_main_v8 (F := Ideal) (m ((c : Thread nD τ).loc main_arg1)))
        (Cert.ReferenceIdeal.Read.val_main_v10 (F := Ideal) (m ((c : Thread nD τ).loc main_arg1)))
        (Cert.ReferenceIdeal.Read.val_main_v11 (F := Ideal) (m ((c : Thread nD τ).loc main_arg1)))

/-- What the program's last host operation leaves in its result array. -/
theorem result_eq (c : Dev nD) :
    Pipeline.afterTail₀ cfgs (dats m) 0 (V0 m) [hostOps1] c main_v13 = value m c := by
  rw [Cert.KerHost.tail_v13, Cert.KerBlocks.final9, Cert.KerHost.result_transposed, V_main_arg0,
    Cert.KerHost.entry_v1, Cert.KerHost.entry_v2, Cert.KerHost.entry_v4, Cert.KerHost.entry_v5,
    Cert.KerHost.entry_v7, Cert.KerHost.entry_v8, Cert.KerHost.entry_v10, Cert.KerHost.entry_v11]

/-- Every weakly fair execution of the idealized kernel program terminates with its result array at the network of the
    launched arguments, the arguments unchanged. -/
theorem run : θ_run defs (onTc (τ := τ) (main (F := Ideal))) ⟨m, fun _ => 0, ρ⟩ fun r => ∀ c : Dev nD,
      r.2.mem ((c.tc : Thread nD τ).loc main_v13) = value m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v13 (Pipeline.mem_restRefs_of main_v13 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KerRun

end
-- ==== Proof.lean ====
/-
  A per-sample four-layer perceptron: the kernel program against its reference, on the extended reals.

  Both programs take the points' coordinates `[512, 4096, 2]` and a flat array `[512, 921]` holding, for each of the 512
  samples, the weights and biases of a network 2 → 20 → 20 → 20 → 1 whose hidden units are `sin (20 · (⟨h, w⟩ + β))` and
  whose output is clamped to `[0, 1]`; both cut the flat array into the same eight slices and reshape them the same
  way. The reference then contracts, layer by layer, the values at a point with the sample's weight rows. The kernel
  works on blocks of sixteen samples and 1024 points with the points on the last axis — it transposes the coordinates
  block, multiplies each weight block by the previous values as a batched matrix product, and writes the output laid
  out `[512, 1, 4096]`, which a last transposition turns into the reference's `[512, 4096, 1]`.

  On the extended reals every float operation is the exact one, so the two programs differ only in arrangement: the
  kernel's products are `w · h` where the reference's are `h · w` (the product is commutative; nothing else is needed,
  in particular no finiteness of the inputs), and the kernel's blocks are restrictions of one function of the whole
  arrays. `Cert.Mlp` states that function; `Cert.RefNet` shows the reference's result is it; `Cert.KerPayload`,
  `Cert.KerBlocks`, `Cert.KerHost` and `Cert.KerRun` show the kernel program's result is it. The kernel's idealization
  rewrote no operation, so that claim is `True`; the three frame claims are the generated frame runs.
-/
import proofs.«176612_j41377714930209_1_alg».proof.Defs
import proofs.«176612_j41377714930209_1_alg».proof.Proof.Gen.Kernel
import proofs.«176612_j41377714930209_1_alg».proof.Proof.Gen.Kernel.Skeleton
import proofs.«176612_j41377714930209_1_alg».proof.Proof.Gen.Kernel.Launch
import proofs.«176612_j41377714930209_1_alg».proof.Proof.Gen.Kernel.Points
import proofs.«176612_j41377714930209_1_alg».proof.Proof.Gen.Kernel.Frame
import proofs.«176612_j41377714930209_1_alg».proof.Proof.Gen.KernelIdeal
import proofs.«176612_j41377714930209_1_alg».proof.Proof.Gen.KernelIdeal.Skeleton
import proofs.«176612_j41377714930209_1_alg».proof.Proof.Gen.KernelIdeal.Launch
import proofs.«176612_j41377714930209_1_alg».proof.Proof.Gen.KernelIdeal.Points
import proofs.«176612_j41377714930209_1_alg».proof.Proof.Gen.KernelIdeal.Frame
import proofs.«176612_j41377714930209_1_alg».proof.Proof.Gen.ReferenceIdeal
import proofs.«176612_j41377714930209_1_alg».proof.Proof.Gen.Pre_finite_inputs
import proofs.«176612_j41377714930209_1_alg».proof.Proof.Gen.ReferenceIdeal.Run
import proofs.«176612_j41377714930209_1_alg».proof.Proof.Gen.ReferenceIdeal.Read
import proofs.«176612_j41377714930209_1_alg».proof.Proof.RefNet
import proofs.«176612_j41377714930209_1_alg».proof.Proof.KerRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the two arguments, both programs end with their result array at the network of
    those arguments. -/
theorem algebraic : Cert.algebraic_KernelIdeal_ReferenceIdeal := by
  intro m ρ m' ρ' _ hagree
  refine ⟨fun c => Cert.KerRun.value m c, Cert.KerRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v37_eq _ _).trans ?_
  rw [Cert.RefNet.ref_result, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
